-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x6400000 : Shape := ⟨2, ![2, 6400000]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x3 .f32) (main_arg1 : IVec S2x6400000 32) (main_arg2 : FVec F S3x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg2
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x3 : Shape := ⟨2, ![100000, 3]⟩
abbrev S2x6400000 : Shape := ⟨2, ![2, 6400000]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x32 : Shape := ⟨2, ![100000, 32]⟩
abbrev S5000x3 : Shape := ⟨2, ![5000, 3]⟩
abbrev S5000x32 : Shape := ⟨2, ![5000, 32]⟩
abbrev S6500000x32 : Shape := ⟨2, ![6500000, 32]⟩
abbrev S1x32 : Shape := ⟨2, ![1, 32]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 101
  | .vmem => 30
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S3x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x6400000, .i32⟩
  | .hbm, ⟨10, _⟩ => ⟨S6400000, .i32⟩
  | .hbm, ⟨11, _⟩ => ⟨S6500000, .i32⟩
  | .hbm, ⟨12, _⟩ => ⟨S1x6400000, .i32⟩
  | .hbm, ⟨13, _⟩ => ⟨S6400000, .i32⟩
  | .hbm, ⟨14, _⟩ => ⟨S6500000, .i32⟩
  | .hbm, ⟨15, _⟩ => ⟨S_, .f32⟩
  | .hbm, ⟨16, _⟩ => ⟨S6500000, .f32⟩
  | .hbm, ⟨17, _⟩ => ⟨S_, .f32⟩
  | .hbm, ⟨18, _⟩ => ⟨S100000, .f32⟩
  | .hbm, ⟨19, _⟩ => ⟨S6500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S_, .i32⟩
  | .hbm, ⟨39, _⟩ => ⟨S6500000, .i32⟩
  | .hbm, ⟨40, _⟩ => ⟨S6500000, .i1⟩
  | .hbm, ⟨41, _⟩ => ⟨S_, .i32⟩
  | .hbm, ⟨42, _⟩ => ⟨S6500000, .i32⟩
  | .hbm, ⟨43, _⟩ => ⟨S6500000, .i32⟩
  | .hbm, ⟨44, _⟩ => ⟨S6500000, .i32⟩
  | .hbm, ⟨45, _⟩ => ⟨S6500000x1, .i32⟩
  | .hbm, ⟨46, _⟩ => ⟨S6500000, .f32⟩
  | .hbm, ⟨47, _⟩ => ⟨S6500000, .f32⟩
  | .hbm, ⟨48, _⟩ => ⟨S100000x32, .f32⟩
  | .hbm, ⟨49, _⟩ => ⟨S_, .i32⟩
  | .hbm, ⟨50, _⟩ => ⟨S6500000, .i32⟩
  | .hbm, ⟨51, _⟩ => ⟨S6500000, .i1⟩
  | .hbm, ⟨52, _⟩ => ⟨S_, .i32⟩
  | .hbm, ⟨53, _⟩ => ⟨S6500000, .i32⟩
  | .hbm, ⟨54, _⟩ => ⟨S6500000, .i32⟩
  | .hbm, ⟨55, _⟩ => ⟨S6500000, .i32⟩
  | .hbm, ⟨56, _⟩ => ⟨S6500000x1, .i32⟩
  | .hbm, ⟨57, _⟩ => ⟨S6500000x32, .f32⟩
  | .hbm, ⟨58, _⟩ => ⟨S6500000x1, .f32⟩
  | .hbm, ⟨59, _⟩ => ⟨S6500000x32, .f32⟩
  | .hbm, ⟨60, _⟩ => ⟨S6500000x32, .f32⟩
  | .hbm, ⟨61, _⟩ => ⟨S_, .f32⟩
  | .hbm, ⟨62, _⟩ => ⟨S100000x32, .f32⟩
  | .hbm, ⟨63, _⟩ => ⟨S6500000x1, .i32⟩
  | .hbm, ⟨64, _⟩ => ⟨S100000x32, .f32⟩
  | .hbm, ⟨65, _⟩ => ⟨S100000x32, .f32⟩
  | .hbm, ⟨66, _⟩ => ⟨S100000x32, .f32⟩
  | .hbm, ⟨67, _⟩ => ⟨S_, .i32⟩
  | .hbm, ⟨68, _⟩ => ⟨S6500000, .i32⟩
  | .hbm, ⟨69, _⟩ => ⟨S6500000, .i1⟩
  | .hbm, ⟨70, _⟩ => ⟨S_, .i32⟩
  | .hbm, ⟨71, _⟩ => ⟨S6500000, .i32⟩
  | .hbm, ⟨72, _⟩ => ⟨S6500000, .i32⟩
  | .hbm, ⟨73, _⟩ => ⟨S6500000, .i32⟩
  | .hbm, ⟨74, _⟩ => ⟨S6500000x1, .i32⟩
  | .hbm, ⟨75, _⟩ => ⟨S6500000x32, .f32⟩
  | .hbm, ⟨76, _⟩ => ⟨S6500000x1, .f32⟩
  | .hbm, ⟨77, _⟩ => ⟨S6500000x32, .f32⟩
  | .hbm, ⟨78, _⟩ => ⟨S6500000x32, .f32⟩
  | .hbm, ⟨79, _⟩ => ⟨S_, .f32⟩
  | .hbm, ⟨80, _⟩ => ⟨S100000x32, .f32⟩
  | .hbm, ⟨81, _⟩ => ⟨S6500000x1, .i32⟩
  | .hbm, ⟨82, _⟩ => ⟨S100000x32, .f32⟩
  | .hbm, ⟨83, _⟩ => ⟨S100000x32, .f32⟩
  | .hbm, ⟨84, _⟩ => ⟨S100000x1, .f32⟩
  | .hbm, ⟨85, _⟩ => ⟨S_, .i32⟩
  | .hbm, ⟨86, _⟩ => ⟨S6500000, .i32⟩
  | .hbm, ⟨87, _⟩ => ⟨S6500000, .i1⟩
  | .hbm, ⟨88, _⟩ => ⟨S_, .i32⟩
  | .hbm, ⟨89, _⟩ => ⟨S6500000, .i32⟩
  | .hbm, ⟨90, _⟩ => ⟨S6500000, .i32⟩
  | .hbm, ⟨91, _⟩ => ⟨S6500000, .i32⟩
  | .hbm, ⟨92, _⟩ => ⟨S6500000x1, .i32⟩
  | .hbm, ⟨93, _⟩ => ⟨S6500000x1, .f32⟩
  | .hbm, ⟨94, _⟩ => ⟨S6500000x1, .f32⟩
  | .hbm, ⟨95, _⟩ => ⟨S6500000x1, .f32⟩
  | .hbm, ⟨96, _⟩ => ⟨S_, .f32⟩
  | .hbm, ⟨97, _⟩ => ⟨S100000x1, .f32⟩
  | .hbm, ⟨98, _⟩ => ⟨S6500000x1, .i32⟩
  | .hbm, ⟨99, _⟩ => ⟨S100000x1, .f32⟩
  | .hbm, ⟨100, _⟩ => ⟨S100000x1, .f32⟩
  | .local _ .vmem, ⟨0, _⟩ => ⟨S5000x3, .f32⟩
  | .local _ .vmem, ⟨1, _⟩ => ⟨S5000x3, .f32⟩
  | .local _ .vmem, ⟨2, _⟩ => ⟨S3x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x1, .f32⟩
  | .local _ .vmem, ⟨23, _⟩ => ⟨S5000x1, .f32⟩
  | .local _ .vmem, ⟨24, _⟩ => ⟨S5000x1, .f32⟩
  | .local _ .vmem, ⟨25, _⟩ => ⟨S5000x1, .f32⟩
  | .local _ .vmem, ⟨26, _⟩ => ⟨S5000x1, .f32⟩
  | .local _ .vmem, ⟨27, _⟩ => ⟨S1, .f32⟩
  | .local _ .vmem, ⟨28, _⟩ => ⟨S5000x1, .f32⟩
  | .local _ .vmem, ⟨29, _⟩ => ⟨S5000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S5000x32_S5000x32_0_0 : ∀ a, (![0, 0] : Fin 2 → Nat) a + S5000x32.size a ≤ S5000x32.size a
  h_S5000x32 : 0 < S5000x32.numel
  bcast_S6500000x1_S6500000x32_0_1 : S6500000x1.BroadcastsInDim S6500000x32 (![0, 1] : Fin 2 → Fin S6500000x32.rank)
  bcast_S_S100000x32 : S_.BroadcastsInDim S100000x32 (![] : Fin 0 → Fin S100000x32.rank)
  shapeCasts_S5000x32_S5000x32 : S5000x32.ShapeCasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S5000x1_S5000x1 : S5000x1.ShapeCasts S5000x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S5000x3_S3x32_S5000x32_1_0_0_1_n_n_wf : DotDims.WF S5000x3 S3x32 S5000x32 [1] [0] [0] [1] [] []
  gather_S100000x32_S6500000x1_S6500000x32_1_0_n_n_0_1_132_wf : GatherDims.WF S100000x32 S6500000x1 S6500000x32 [1] [0] [] [0] [] 1 ![1, 32]
  scatter_S100000x32_S6500000x1_S6500000x32_1_0_0_1_wf : ScatterDims.WF S100000x32 S6500000x1 S6500000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  gather_S100000x1_S6500000x1_S6500000x1_1_0_n_n_0_1_11_wf : GatherDims.WF S100000x1 S6500000x1 S6500000x1 [1] [0] [] [0] [] 1 ![1, 1]
  scatter_S100000x1_S6500000x1_S6500000x1_1_0_0_1_wf : ScatterDims.WF S100000x1 S6500000x1 S6500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32.size a ≤ S32.size a
  hwx3_1 : ∀ i : grid3.Coords, EltTy.bits .f32 = 32 ∨ (Rect.block (s := S32) S32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .f32 = 32 ∨ (Rect.block (s := S100000x1) S5000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1.size a ≤ S1.size a
  hwx5_1 : ∀ i : grid5.Coords, EltTy.bits .f32 = 32 ∨ (Rect.block (s := S1) S1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S5000x3_S3x32_S5000x32_1_0_0_1_n_n : DotDims S5000x3 S3x32 S5000x32 where
  lhsContracting := [1]
  rhsContracting := [0]
  lhsNonContracting := [0]
  rhsNonContracting := [1]
  lhsBatch := []
  rhsBatch := []
  wf := dot_S5000x3_S3x32_S5000x32_1_0_0_1_n_n_wf
def gather_S100000x32_S6500000x1_S6500000x32_1_0_n_n_0_1_132 : GatherDims S100000x32 S6500000x1 S6500000x32 where
  offsetDims := [1]
  collapsedSliceDims := [0]
  operandBatchingDims := []
  startIndicesBatchingDims := []
  startIndexMap := [0]
  indexVectorDim := 1
  sliceSizes := ![1, 32]
  wf := gather_S100000x32_S6500000x1_S6500000x32_1_0_n_n_0_1_132_wf
def scatter_S100000x32_S6500000x1_S6500000x32_1_0_0_1 : ScatterDims S100000x32 S6500000x1 S6500000x32 where
  updateWindowDims := [1]
  insertedWindowDims := [0]
  scatterDimsToOperandDims := [0]
  indexVectorDim := 1
  wf := scatter_S100000x32_S6500000x1_S6500000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S100000x1_S6500000x1_S6500000x1_1_0_n_n_0_1_11 : GatherDims S100000x1 S6500000x1 S6500000x1 where
  offsetDims := [1]
  collapsedSliceDims := [0]
  operandBatchingDims := []
  startIndicesBatchingDims := []
  startIndexMap := [0]
  indexVectorDim := 1
  sliceSizes := ![1, 1]
  wf := gather_S100000x1_S6500000x1_S6500000x1_1_0_n_n_0_1_11_wf
def scatter_S100000x1_S6500000x1_S6500000x1_1_0_0_1 : ScatterDims S100000x1 S6500000x1 S6500000x1 where
  updateWindowDims := [1]
  insertedWindowDims := [0]
  scatterDimsToOperandDims := [0]
  indexVectorDim := 1
  wf := scatter_S100000x1_S6500000x1_S6500000x1_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S5000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x3 : Shape := ⟨2, ![100000, 3]⟩
abbrev S2x6400000 : Shape := ⟨2, ![2, 6400000]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x32 : Shape := ⟨2, ![100000, 32]⟩
abbrev S6500000x32 : Shape := ⟨2, ![6500000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x6400000, .i32⟩
  | .hbm, ⟨2, _⟩ => ⟨S3x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x6400000, .i32⟩
  | .hbm, ⟨10, _⟩ => ⟨S6400000, .i32⟩
  | .hbm, ⟨11, _⟩ => ⟨S6500000, .i32⟩
  | .hbm, ⟨12, _⟩ => ⟨S1x6400000, .i32⟩
  | .hbm, ⟨13, _⟩ => ⟨S6400000, .i32⟩
  | .hbm, ⟨14, _⟩ => ⟨S6500000, .i32⟩
  | .hbm, ⟨15, _⟩ => ⟨S_, .f32⟩
  | .hbm, ⟨16, _⟩ => ⟨S6500000, .f32⟩
  | .hbm, ⟨17, _⟩ => ⟨S_, .f32⟩
  | .hbm, ⟨18, _⟩ => ⟨S100000, .f32⟩
  | .hbm, ⟨19, _⟩ => ⟨S6500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S_, .i32⟩
  | .hbm, ⟨39, _⟩ => ⟨S6500000, .i32⟩
  | .hbm, ⟨40, _⟩ => ⟨S6500000, .i1⟩
  | .hbm, ⟨41, _⟩ => ⟨S_, .i32⟩
  | .hbm, ⟨42, _⟩ => ⟨S6500000, .i32⟩
  | .hbm, ⟨43, _⟩ => ⟨S6500000, .i32⟩
  | .hbm, ⟨44, _⟩ => ⟨S6500000, .i32⟩
  | .hbm, ⟨45, _⟩ => ⟨S6500000x1, .i32⟩
  | .hbm, ⟨46, _⟩ => ⟨S6500000, .f32⟩
  | .hbm, ⟨47, _⟩ => ⟨S6500000, .f32⟩
  | .hbm, ⟨48, _⟩ => ⟨S100000x32, .f32⟩
  | .hbm, ⟨49, _⟩ => ⟨S_, .i32⟩
  | .hbm, ⟨50, _⟩ => ⟨S6500000, .i32⟩
  | .hbm, ⟨51, _⟩ => ⟨S6500000, .i1⟩
  | .hbm, ⟨52, _⟩ => ⟨S_, .i32⟩
  | .hbm, ⟨53, _⟩ => ⟨S6500000, .i32⟩
  | .hbm, ⟨54, _⟩ => ⟨S6500000, .i32⟩
  | .hbm, ⟨55, _⟩ => ⟨S6500000, .i32⟩
  | .hbm, ⟨56, _⟩ => ⟨S6500000x1, .i32⟩
  | .hbm, ⟨57, _⟩ => ⟨S6500000x32, .f32⟩
  | .hbm, ⟨58, _⟩ => ⟨S6500000x1, .f32⟩
  | .hbm, ⟨59, _⟩ => ⟨S6500000x32, .f32⟩
  | .hbm, ⟨60, _⟩ => ⟨S6500000x32, .f32⟩
  | .hbm, ⟨61, _⟩ => ⟨S_, .f32⟩
  | .hbm, ⟨62, _⟩ => ⟨S100000x32, .f32⟩
  | .hbm, ⟨63, _⟩ => ⟨S6500000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S6500000, .i32⟩
  | .hbm, ⟨74, _⟩ => ⟨S6500000, .i1⟩
  | .hbm, ⟨75, _⟩ => ⟨S_, .i32⟩
  | .hbm, ⟨76, _⟩ => ⟨S6500000, .i32⟩
  | .hbm, ⟨77, _⟩ => ⟨S6500000, .i32⟩
  | .hbm, ⟨78, _⟩ => ⟨S6500000, .i32⟩
  | .hbm, ⟨79, _⟩ => ⟨S6500000x1, .i32⟩
  | .hbm, ⟨80, _⟩ => ⟨S6500000x32, .f32⟩
  | .hbm, ⟨81, _⟩ => ⟨S6500000x1, .f32⟩
  | .hbm, ⟨82, _⟩ => ⟨S6500000x32, .f32⟩
  | .hbm, ⟨83, _⟩ => ⟨S6500000x32, .f32⟩
  | .hbm, ⟨84, _⟩ => ⟨S_, .f32⟩
  | .hbm, ⟨85, _⟩ => ⟨S100000x32, .f32⟩
  | .hbm, ⟨86, _⟩ => ⟨S6500000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000x32, .f32⟩
  | .hbm, ⟨93, _⟩ => ⟨S100000x32, .f32⟩
  | .hbm, ⟨94, _⟩ => ⟨S100000x1, .f32⟩
  | .hbm, ⟨95, _⟩ => ⟨S_, .i32⟩
  | .hbm, ⟨96, _⟩ => ⟨S6500000, .i32⟩
  | .hbm, ⟨97, _⟩ => ⟨S6500000, .i1⟩
  | .hbm, ⟨98, _⟩ => ⟨S_, .i32⟩
  | .hbm, ⟨99, _⟩ => ⟨S6500000, .i32⟩
  | .hbm, ⟨100, _⟩ => ⟨S6500000, .i32⟩
  | .hbm, ⟨101, _⟩ => ⟨S6500000, .i32⟩
  | .hbm, ⟨102, _⟩ => ⟨S6500000x1, .i32⟩
  | .hbm, ⟨103, _⟩ => ⟨S6500000x1, .f32⟩
  | .hbm, ⟨104, _⟩ => ⟨S6500000x1, .f32⟩
  | .hbm, ⟨105, _⟩ => ⟨S6500000x1, .f32⟩
  | .hbm, ⟨106, _⟩ => ⟨S_, .f32⟩
  | .hbm, ⟨107, _⟩ => ⟨S100000x1, .f32⟩
  | .hbm, ⟨108, _⟩ => ⟨S6500000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x32_0_1 : S6500000x1.BroadcastsInDim S6500000x32 (![0, 1] : Fin 2 → Fin S6500000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x3_S3x32_S100000x32_1_0_0_1_n_n_wf : DotDims.WF S100000x3 S3x32 S100000x32 [1] [0] [0] [1] [] []
  gather_S100000x32_S6500000x1_S6500000x32_1_0_n_n_0_1_132_wf : GatherDims.WF S100000x32 S6500000x1 S6500000x32 [1] [0] [] [0] [] 1 ![1, 32]
  scatter_S100000x32_S6500000x1_S6500000x32_1_0_0_1_wf : ScatterDims.WF S100000x32 S6500000x1 S6500000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []
  gather_S100000x1_S6500000x1_S6500000x1_1_0_n_n_0_1_11_wf : GatherDims.WF S100000x1 S6500000x1 S6500000x1 [1] [0] [] [0] [] 1 ![1, 1]
  scatter_S100000x1_S6500000x1_S6500000x1_1_0_0_1_wf : ScatterDims.WF S100000x1 S6500000x1 S6500000x1 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000x32_S6500000x1_S6500000x32_1_0_n_n_0_1_132 : GatherDims S100000x32 S6500000x1 S6500000x32 where
  offsetDims := [1]
  collapsedSliceDims := [0]
  operandBatchingDims := []
  startIndicesBatchingDims := []
  startIndexMap := [0]
  indexVectorDim := 1
  sliceSizes := ![1, 32]
  wf := gather_S100000x32_S6500000x1_S6500000x32_1_0_n_n_0_1_132_wf
def scatter_S100000x32_S6500000x1_S6500000x32_1_0_0_1 : ScatterDims S100000x32 S6500000x1 S6500000x32 where
  updateWindowDims := [1]
  insertedWindowDims := [0]
  scatterDimsToOperandDims := [0]
  indexVectorDim := 1
  wf := scatter_S100000x32_S6500000x1_S6500000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S6500000x1_S6500000x1_1_0_n_n_0_1_11 : GatherDims S100000x1 S6500000x1 S6500000x1 where
  offsetDims := [1]
  collapsedSliceDims := [0]
  operandBatchingDims := []
  startIndicesBatchingDims := []
  startIndexMap := [0]
  indexVectorDim := 1
  sliceSizes := ![1, 1]
  wf := gather_S100000x1_S6500000x1_S6500000x1_1_0_n_n_0_1_11_wf
def scatter_S100000x1_S6500000x1_S6500000x1_1_0_0_1 : ScatterDims S100000x1 S6500000x1 S6500000x1 where
  updateWindowDims := [1]
  insertedWindowDims := [0]
  scatterDimsToOperandDims := [0]
  indexVectorDim := 1
  wf := scatter_S100000x1_S6500000x1_S6500000x1_1_0_0_1_wf

class Facts : Prop extends Facts₀ where

variable [Facts]
-- ==== Proof.KernelRun.lean ====
/-
  The kernel program's run with its result named.

  The program is twelve segments: host stretches and six launches. The generated frame runs them in order, each from the
  buffer contents the previous one leaves (`W0`, …, `W12`), and at the end every unscoped buffer holds the last
  boundary's contents `W12`. Its stated post keeps only the argument arrays; here the same run is stated with the result
  buffer kept as well: it ends at `W12`'s value of the result array. What that value is, as a function of the
  arguments, is read off the boundaries one by one in the modules that import this one.
-/
import proofs.«123987_j11390253269710_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v73) = W12 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v73 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Result

end
-- ==== Proof.GcnSpec.lean ====
/-
  A three-layer graph convolution as whole-array functions.

  The graph has 100000 nodes and 6400000 directed edges given as an index array `e` of two rows (sources, targets); a
  self loop is appended for every node, so there are 6500000 edges. The degree of a node is the number of edges that end
  in it (a sum of ones scattered by target), `dis` is its inverse square root where the degree is positive and zero
  elsewhere, and an edge's weight `norm` is the product of `dis` at its two ends. One aggregation step gathers a feature
  matrix's rows by source, scales each by the edge's weight, and adds them up by target (`aggregate`). A layer is a
  product with a weight matrix, an aggregation, and a bias row added to every row; the first two layers clamp the result
  at zero from below. `network` is the three layers in order. The index columns fed to gather and scatter are the host's:
  a negative index has the node count added once (`column`).
-/
import proofs.«123987_j11390253269710_2_alg».proof.Proof.Gen.ReferenceIdeal
import Idealize.ShloMosaic.PureOps.Ideal

noncomputable section

namespace Cert.Gcn

open Cert.ReferenceIdeal Cert.ReferenceIdeal.Gen Idealize.ShloMosaic

variable {F : FTy → Type} [FloatOps F]

/-- The edges' sources, the self loops appended. -/
def src (e : (⟨S2x6400000, .i32⟩ : BufTy).Contents (Elt F)) : (⟨S6500000, .i32⟩ : BufTy).Contents (Elt F) :=
  concatenate S6500000 0 [⟨S6400000, (shapeCast _ (extractStridedSlice S1x6400000 ![0, 0] e slices_S2x6400000_S1x6400000_0_0) shapeCasts_S1x6400000_S6400000)⟩, ⟨S100000, (iotaInDim S100000 32 0)⟩] concatenates_S6400000_S100000_S6500000_d0

/-- The edges' targets, the self loops appended. -/
def dst (e : (⟨S2x6400000, .i32⟩ : BufTy).Contents (Elt F)) : (⟨S6500000, .i32⟩ : BufTy).Contents (Elt F) :=
  concatenate S6500000 0 [⟨S6400000, (shapeCast _ (extractStridedSlice S1x6400000 ![1, 0] e slices_S2x6400000_S1x6400000_1_0) shapeCasts_S1x6400000_S6400000)⟩, ⟨S100000, (iotaInDim S100000 32 0)⟩] concatenates_S6400000_S100000_S6500000_d0

/-- An index vector as the column a gather reads: a negative index has the node count added. -/
def column (v : (⟨S6500000, .i32⟩ : BufTy).Contents (Elt F)) : (⟨S6500000x1, .i32⟩ : BufTy).Contents (Elt F) :=
  broadcastInDim S6500000x1 ![0] bcast_S6500000_S6500000x1_0 (select (cmpi .slt v (broadcastInDim S6500000 ![] bcast_S_S6500000 (constantI S_ 32 0#32))) (addi v (broadcastInDim S6500000 ![] bcast_S_S6500000 (constantI S_ 32 100000#32))) v)

/-- The number of edges that end in each node. -/
def deg (e : (⟨S2x6400000, .i32⟩ : BufTy).Contents (Elt F)) : (⟨S100000, .f32⟩ : BufTy).Contents (Elt F) :=
  Host.scatterAdd scatter_S100000_S6500000x1_S6500000_n_0_0_1 (broadcastInDim S100000 ![] bcast_S_S100000 (constant S_ .f32 0x00000000#32)) (broadcastInDim S6500000x1 ![0] bcast_S6500000_S6500000x1_0 (dst e)) (broadcastInDim S6500000 ![] bcast_S_S6500000 (constant S_ .f32 0x3F800000#32))

/-- Where an array is positive. -/
def positive (g : (⟨S100000, .f32⟩ : BufTy).Contents (Elt F)) : (⟨S100000, .i1⟩ : BufTy).Contents (Elt F) :=
  cmpf (F := F) .ogt g (broadcastInDim S100000 ![] bcast_S_S100000 (constant S_ .f32 0x00000000#32))

/-- One array where a mask holds, a scalar spread over the nodes elsewhere. -/
def disOf (p : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select p r (broadcastInDim S100000 ![] bcast_S_S100000 (id z))

/-- The degree's inverse square root where the degree is positive, zero elsewhere. -/
def dis (e : (⟨S2x6400000, .i32⟩ : BufTy).Contents (Elt F)) : (⟨S100000, .f32⟩ : BufTy).Contents (Elt F) :=
  disOf (positive (deg e)) (Host.rsqrt (deg e)) (constant S_ .f32 0x00000000#32)

/-- A per-node array read at the two ends of every edge and multiplied. -/
def normOf (d : (⟨S100000, .f32⟩ : BufTy).Contents (Elt F)) (s t : (⟨S6500000, .i32⟩ : BufTy).Contents (Elt F)) :
    (⟨S6500000, .f32⟩ : BufTy).Contents (Elt F) :=
  mulf (Host.gather gather_S100000_S6500000x1_S6500000_n_0_n_n_0_1_1 d (column s)) (Host.gather gather_S100000_S6500000x1_S6500000_n_0_n_n_0_1_1 d (column t))

/-- An edge's weight: `dis` at its source times `dis` at its target. -/
def norm (e : (⟨S2x6400000, .i32⟩ : BufTy).Contents (Elt F)) : (⟨S6500000, .f32⟩ : BufTy).Contents (Elt F) :=
  normOf (dis e) (src e) (dst e)

/-- One aggregation of 32-wide features: rows gathered by source, weighted, summed by target. The index vectors and
    the weights are parameters. -/
def aggregate32 (h : (⟨S100000x32, .f32⟩ : BufTy).Contents (Elt F)) (s d : (⟨S6500000, .i32⟩ : BufTy).Contents (Elt F))
    (w : (⟨S6500000, .f32⟩ : BufTy).Contents (Elt F)) : (⟨S100000x32, .f32⟩ : BufTy).Contents (Elt F) :=
  Host.scatterAdd scatter_S100000x32_S6500000x1_S6500000x32_1_0_0_1 (broadcastInDim S100000x32 ![] bcast_S_S100000x32 (constant S_ .f32 0x00000000#32)) (broadcastInDim S6500000x1 ![0] bcast_S6500000_S6500000x1_0 d) (mulf (Host.gather gather_S100000x32_S6500000x1_S6500000x32_1_0_n_n_0_1_132 h (column s)) (broadcastInDim S6500000x32 ![0, 1] bcast_S6500000x1_S6500000x32_0_1 (broadcastInDim S6500000x1 ![0] bcast_S6500000_S6500000x1_0 w)))

/-- The same for one-wide features. -/
def aggregate1 (h : (⟨S100000x1, .f32⟩ : BufTy).Contents (Elt F)) (s d : (⟨S6500000, .i32⟩ : BufTy).Contents (Elt F))
    (w : (⟨S6500000, .f32⟩ : BufTy).Contents (Elt F)) : (⟨S100000x1, .f32⟩ : BufTy).Contents (Elt F) :=
  Host.scatterAdd scatter_S100000x1_S6500000x1_S6500000x1_1_0_0_1 (broadcastInDim S100000x1 ![] bcast_S_S100000x1 (constant S_ .f32 0x00000000#32)) (broadcastInDim S6500000x1 ![0] bcast_S6500000_S6500000x1_0 d) (mulf (Host.gather gather_S100000x1_S6500000x1_S6500000x1_1_0_n_n_0_1_11 h (column s)) (broadcastInDim S6500000x1 ![0] bcast_S6500000_S6500000x1_0 w))

/-- A bias row added to every row of a 32-wide array, then the maximum with zero. -/
def biasClamp32 (x : (⟨S100000x32, .f32⟩ : BufTy).Contents (Elt F)) (b : (⟨S32, .f32⟩ : BufTy).Contents (Elt F)) :
    (⟨S100000x32, .f32⟩ : BufTy).Contents (Elt F) :=
  maximumf (addf x (broadcastInDim S100000x32 ![0, 1] bcast_S1x32_S100000x32_0_1 (broadcastInDim S1x32 ![1] bcast_S32_S1x32_1 b))) (broadcastInDim S100000x32 ![] bcast_S_S100000x32 (constant S_ .f32 0x00000000#32))

/-- A bias added to every row of a one-wide array. -/
def bias1 (x : (⟨S100000x1, .f32⟩ : BufTy).Contents (Elt F)) (b : (⟨S1, .f32⟩ : BufTy).Contents (Elt F)) :
    (⟨S100000x1, .f32⟩ : BufTy).Contents (Elt F) :=
  addf x (broadcastInDim S100000x1 ![0, 1] bcast_S1x1_S100000x1_0_1 (broadcastInDim S1x1 ![1] bcast_S1_S1x1_1 b))

/-- The three dense products: features times a layer's weight matrix. -/
def dense1 (x : (⟨S100000x3, .f32⟩ : BufTy).Contents (Elt F)) (W : (⟨S3x32, .f32⟩ : BufTy).Contents (Elt F)) :
    (⟨S100000x32, .f32⟩ : BufTy).Contents (Elt F) :=
  Host.dotGeneral dot_S100000x3_S3x32_S100000x32_1_0_0_1_n_n none x W
def dense2 (x : (⟨S100000x32, .f32⟩ : BufTy).Contents (Elt F)) (W : (⟨S32x32, .f32⟩ : BufTy).Contents (Elt F)) :
    (⟨S100000x32, .f32⟩ : BufTy).Contents (Elt F) :=
  Host.dotGeneral dot_S100000x32_S32x32_S100000x32_1_0_0_1_n_n none x W
def dense3 (x : (⟨S100000x32, .f32⟩ : BufTy).Contents (Elt F)) (W : (⟨S32x1, .f32⟩ : BufTy).Contents (Elt F)) :
    (⟨S100000x1, .f32⟩ : BufTy).Contents (Elt F) :=
  Host.dotGeneral dot_S100000x32_S32x1_S100000x1_1_0_0_1_n_n none x W

/-- The hidden features after the first layer. -/
def hidden1 (x : (⟨S100000x3, .f32⟩ : BufTy).Contents (Elt F)) (e : (⟨S2x6400000, .i32⟩ : BufTy).Contents (Elt F))
    (W1 : (⟨S3x32, .f32⟩ : BufTy).Contents (Elt F)) (b1 : (⟨S32, .f32⟩ : BufTy).Contents (Elt F)) :
    (⟨S100000x32, .f32⟩ : BufTy).Contents (Elt F) :=
  biasClamp32 (aggregate32 (dense1 x W1) (src e) (dst e) (norm e)) b1

/-- The hidden features after the second layer. -/
def hidden2 (x : (⟨S100000x3, .f32⟩ : BufTy).Contents (Elt F)) (e : (⟨S2x6400000, .i32⟩ : BufTy).Contents (Elt F))
    (W1 : (⟨S3x32, .f32⟩ : BufTy).Contents (Elt F)) (b1 : (⟨S32, .f32⟩ : BufTy).Contents (Elt F))
    (W2 : (⟨S32x32, .f32⟩ : BufTy).Contents (Elt F)) (b2 : (⟨S32, .f32⟩ : BufTy).Contents (Elt F)) :
    (⟨S100000x32, .f32⟩ : BufTy).Contents (Elt F) :=
  biasClamp32 (aggregate32 (dense2 (hidden1 x e W1 b1) W2) (src e) (dst e) (norm e)) b2

/-- The network's output: the third layer, without a clamp. -/
def network (x : (⟨S100000x3, .f32⟩ : BufTy).Contents (Elt F)) (e : (⟨S2x6400000, .i32⟩ : BufTy).Contents (Elt F))
    (W1 : (⟨S3x32, .f32⟩ : BufTy).Contents (Elt F)) (b1 : (⟨S32, .f32⟩ : BufTy).Contents (Elt F))
    (W2 : (⟨S32x32, .f32⟩ : BufTy).Contents (Elt F)) (b2 : (⟨S32, .f32⟩ : BufTy).Contents (Elt F))
    (W3 : (⟨S32x1, .f32⟩ : BufTy).Contents (Elt F)) (b3 : (⟨S1, .f32⟩ : BufTy).Contents (Elt F)) :
    (⟨S100000x1, .f32⟩ : BufTy).Contents (Elt F) :=
  bias1 (aggregate1 (dense3 (hidden2 x e W1 b1 W2 b2) W3) (src e) (dst e) (norm e)) b3

end Cert.Gcn

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«123987_j11390253269710_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibBiasRow.lean ====
/-
  A bias vector spread over the rows of a matrix, read at an entry.

  A `[b]` vector is turned into an `[a, b]` matrix by two `broadcast_in_dim`s: first to one row `[1, b]` (the vector's
  axis becomes the column axis), then that row to all `a` rows. Read at the entry `(r, q)`, the second broadcast reads
  the one row at `(0, q)` (the row axis of its operand is a unit axis) and the first reads the vector at `q`. The same
  vector RESHAPED to one row, read at `(0, q)`, is also the vector at `q`. So the matrix's entry `(r, q)` is the
  reshaped row's entry `(0, q)`: every row of the matrix is that one row. Nothing here depends on the element type or on
  the extents, and the side conditions of the three operations may be any proofs.
-/
import Idealize.ShloMosaic.Lib.Pipeline.Value
import Idealize.ShloMosaic.Lib.ValueIdx
import Idealize.ShloMosaic.Lib.ValueLayout

namespace Cert.BiasRow

open Idealize.ShloMosaic Idealize.ShloMosaic.ValueIdx

/-- A `[b]` vector broadcast to one row `[1, b]` reads, at `(u, q)`, the vector at `q`. -/
theorem row_apply {α : Type} {b : ℕ} (v : (⟨1, ![b]⟩ : Shape).Idx → α)
    (h1 : (⟨1, ![b]⟩ : Shape).BroadcastsInDim ⟨2, ![1, b]⟩ ![1]) (u : Fin 1) (q : Fin b) :
    broadcastInDim ⟨2, ![1, b]⟩ ![1] h1 v (ix2 u q) = v (ix1 q) := by
  refine broadcastInDim_apply _ h1 v (ix2 u q) (ix1 q) fun ax => ?_
  match ax with
  | ⟨0, _⟩ =>
    show q.val = if b = 1 then 0 else q.val
    split
    · have := q.isLt; omega
    · rfl

/-- A `[1, b]` row broadcast over `a` rows reads, at `(r, q)`, the row at `(0, q)`. -/
theorem rows_apply {α : Type} {a b : ℕ} (w : (⟨2, ![1, b]⟩ : Shape).Idx → α)
    (h2 : (⟨2, ![1, b]⟩ : Shape).BroadcastsInDim ⟨2, ![a, b]⟩ ![0, 1]) (r : Fin a) (q : Fin b) :
    broadcastInDim ⟨2, ![a, b]⟩ ![0, 1] h2 w (ix2 r q) = w (ix2 (0 : Fin 1) q) := by
  refine broadcastInDim_apply _ h2 w (ix2 r q) (ix2 (0 : Fin 1) q) fun ax => ?_
  match ax with
  | ⟨0, _⟩ => rfl
  | ⟨1, _⟩ =>
    show q.val = if b = 1 then 0 else q.val
    split
    · have := q.isLt; omega
    · rfl

/-- THE BIAS OVER THE ROWS: the vector broadcast to one row and then over `a` rows, read at any entry, is the vector
    reshaped to one row read at that entry's column: both are the vector at the column. -/
theorem row_over_rows_eq_cast {α : Type} {a b : ℕ} (v : (⟨1, ![b]⟩ : Shape).Idx → α)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (i : (⟨2, ![a, b]⟩ : Shape).Idx) :
    broadcastInDim ⟨2, ![a, b]⟩ ![0, 1] h2 (broadcastInDim ⟨2, ![1, b]⟩ ![1] h1 v) i
      = shapeCast ⟨2, ![1, b]⟩ v hc (ix2 (0 : Fin 1) (i 1)) := by
  obtain ⟨r, q, rfl⟩ : ∃ (r : Fin a) (q : Fin b), i = ix2 r q := ⟨i 0, i 1, eq_ix2 i⟩
  show _ = shapeCast ⟨2, ![1, b]⟩ v hc (ix2 (0 : Fin 1) q)
  rw [rows_apply, row_apply, shapeCast_a_1a_apply]

end Cert.BiasRow
-- ==== Proof.LibRowBias.lean ====
/-
  A bias row added to every row of a matrix, with or without a clamp at zero from below, over the extended reals.

  `addRow x r` adds to each entry `(p, q)` of an `[a, b]` matrix the entry `(0, q)` of a one-row array `[1, b]`;
  `reluAddRow x r` then takes the maximum with zero (the float whose word is `0x00000000`, kept unevaluated). A host
  program that spreads a `[b]` vector over the rows of the matrix by two `broadcast_in_dim`s (`[b] → [1, b]` on the column
  axis, then `[1, b] → [a, b]`) and adds it — and, for the clamp, takes the maximum with a zero constant broadcast from a
  scalar — computes exactly these functions of the vector RESHAPED to one row: at `(p, q)` both read the vector at `q`.
  So a kernel that is handed the bias as a `[1, b]` row and a host line that broadcasts the `[b]` vector meet in `addRow` /
  `reluAddRow`. Any extents, any proofs of the operations' side conditions; nothing here needs finiteness.
-/
import proofs.«123987_j11390253269710_2_alg».proof.Proof.LibBiasRow
import Idealize.ShloMosaic.PureOps.Ideal
import Idealize.ShloMosaic.Lib.Pipeline.Value
import Idealize.ShloMosaic.Lib.ValueIdx
import Idealize.ShloMosaic.Lib.ValueLayout

noncomputable section

namespace Cert.RowBias

open Idealize.ShloMosaic Idealize.ShloMosaic.ValueIdx

/-- Entry `(p, q)` of the matrix plus entry `(0, q)` of the row. -/
def addRow {a b : ℕ} (x : (⟨2, ![a, b]⟩ : Shape).Idx → EReal) (r : (⟨2, ![1, b]⟩ : Shape).Idx → EReal) :
    (⟨2, ![a, b]⟩ : Shape).Idx → EReal :=
  fun i => x i + r (ix2 (0 : Fin 1) (i 1))

/-- The same, then the maximum with zero (the word `0x00000000` read as a float). -/
def reluAddRow {a b : ℕ} (x : (⟨2, ![a, b]⟩ : Shape).Idx → EReal) (r : (⟨2, ![1, b]⟩ : Shape).Idx → EReal) :
    (⟨2, ![a, b]⟩ : Shape).Idx → EReal :=
  fun i => max (x i + r (ix2 (0 : Fin 1) (i 1))) (Ideal.ofBits .f32 0x00000000#32)

/-- A scalar broadcast to a matrix reads the scalar at every entry. -/
theorem scalar_over_matrix_apply {α : Type} {a b : ℕ} (z : (⟨0, ![]⟩ : Shape).Idx → α)
    (h0 : (⟨0, ![]⟩ : Shape).BroadcastsInDim ⟨2, ![a, b]⟩ ![]) (i : (⟨2, ![a, b]⟩ : Shape).Idx) :
    broadcastInDim ⟨2, ![a, b]⟩ ![] h0 z i = z ix0 :=
  broadcastInDim_apply _ h0 z i ix0 fun ax => ax.elim0

/-- THE HOST'S BIAS ADD: the matrix plus the vector spread over its rows by two `broadcast_in_dim`s is `addRow` of the
    matrix and the vector reshaped to one row. -/
theorem host_addRow {a b : ℕ} (x : FVec Ideal ⟨2, ![a, b]⟩ .f32) (v : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1]) :
    addf x (broadcastInDim ⟨2, ![a, b]⟩ ![0, 1] h2 (broadcastInDim ⟨2, ![1, b]⟩ ![1] h1 v))
      = addRow x (shapeCast ⟨2, ![1, b]⟩ v hc) := by
  funext i
  show x i + broadcastInDim ⟨2, ![a, b]⟩ ![0, 1] h2 (broadcastInDim ⟨2, ![1, b]⟩ ![1] h1 v) i
    = x i + shapeCast ⟨2, ![1, b]⟩ v hc (ix2 (0 : Fin 1) (i 1))
  rw [Cert.BiasRow.row_over_rows_eq_cast v hc h1 h2 i]

/-- THE HOST'S BIAS ADD AND CLAMP: the maximum of that sum with a broadcast zero constant is `reluAddRow`. -/
theorem host_reluAddRow {a b : ℕ} (x : FVec Ideal ⟨2, ![a, b]⟩ .f32) (v : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    maximumf (addf x (broadcastInDim ⟨2, ![a, b]⟩ ![0, 1] h2 (broadcastInDim ⟨2, ![1, b]⟩ ![1] h1 v)))
        (broadcastInDim ⟨2, ![a, b]⟩ ![] h0 (constant (F := Ideal) ⟨0, ![]⟩ .f32 0x00000000#32))
      = reluAddRow x (shapeCast ⟨2, ![1, b]⟩ v hc) := by
  funext i
  show max (x i + broadcastInDim ⟨2, ![a, b]⟩ ![0, 1] h2 (broadcastInDim ⟨2, ![1, b]⟩ ![1] h1 v) i)
      (broadcastInDim ⟨2, ![a, b]⟩ ![] h0 (constant (F := Ideal) ⟨0, ![]⟩ .f32 0x00000000#32) i)
    = max (x i + shapeCast ⟨2, ![1, b]⟩ v hc (ix2 (0 : Fin 1) (i 1))) (Ideal.ofBits .f32 0x00000000#32)
  rw [Cert.BiasRow.row_over_rows_eq_cast v hc h1 h2 i, scalar_over_matrix_apply]
  rfl

end Cert.RowBias

end
-- ==== Proof.GcnLaws.lean ====
/-
  The network's dense and bias stages as plain sums and row additions.

  On the extended reals the host's product of a feature matrix with a weight matrix is the array whose entry (r, c) is
  the sum over k of x(r, k) · w(k, c) (`rowsTimes`); the bias spread over the rows by two broadcasts and added — and, in
  the first two layers, clamped at zero from below — is `addRow` / `reluAddRow` of the array and the bias reshaped to one
  row. These are the forms in which the blocked launches of the kernel program compute the same stages.
-/
import proofs.«123987_j11390253269710_2_alg».proof.Proof.GcnSpec
import proofs.«123987_j11390253269710_2_alg».proof.Proof.LibRowsTimes
import proofs.«123987_j11390253269710_2_alg».proof.Proof.LibRowBias

noncomputable section

namespace Cert.Gcn

open Cert.ReferenceIdeal Cert.ReferenceIdeal.Gen Idealize.ShloMosaic Idealize.ShloMosaic.RowsTimes Cert.RowBias

theorem dense1_eq (x : FVec Ideal S100000x3 .f32) (W : FVec Ideal S3x32 .f32) :
    dense1 (F := Ideal) x W = rowsTimes (M := 100000) (K := 3) (N := 32) x W :=
  hostDot_eq dot_S100000x3_S3x32_S100000x32_1_0_0_1_n_n rfl rfl rfl rfl rfl rfl rfl rfl none x W

theorem dense2_eq (x : FVec Ideal S100000x32 .f32) (W : FVec Ideal S32x32 .f32) :
    dense2 (F := Ideal) x W = rowsTimes (M := 100000) (K := 32) (N := 32) x W :=
  hostDot_eq dot_S100000x32_S32x32_S100000x32_1_0_0_1_n_n rfl rfl rfl rfl rfl rfl rfl rfl none x W

theorem dense3_eq (x : FVec Ideal S100000x32 .f32) (W : FVec Ideal S32x1 .f32) :
    dense3 (F := Ideal) x W = rowsTimes (M := 100000) (K := 32) (N := 1) x W :=
  hostDot_eq dot_S100000x32_S32x1_S100000x1_1_0_0_1_n_n rfl rfl rfl rfl rfl rfl rfl rfl none x W

theorem biasClamp32_eq (x : FVec Ideal S100000x32 .f32) (b : FVec Ideal S32 .f32)
    (hc : (⟨1, ![32]⟩ : Shape).ShapeCasts ⟨2, ![1, 32]⟩) :
    biasClamp32 (F := Ideal) x b = reluAddRow (a := 100000) (b := 32) x (shapeCast ⟨2, ![1, 32]⟩ b hc) :=
  host_reluAddRow x b hc bcast_S32_S1x32_1 bcast_S1x32_S100000x32_0_1 bcast_S_S100000x32

theorem bias1_eq (x : FVec Ideal S100000x1 .f32) (b : FVec Ideal S1 .f32)
    (hc : (⟨1, ![1]⟩ : Shape).ShapeCasts ⟨2, ![1, 1]⟩) :
    bias1 (F := Ideal) x b = addRow (a := 100000) (b := 1) x (shapeCast ⟨2, ![1, 1]⟩ b hc) :=
  host_addRow x b hc bcast_S1_S1x1_1 bcast_S1x1_S100000x1_0_1

end Cert.Gcn

end
-- ==== Proof.MatRegion0.lean ====
/-
  The first dense layer's product, block by block.

  The node axis of the [100000, 3] feature matrix is cut into 20 blocks of 5000 rows; grid point t multiplies block t
  (rows 5000 t … 5000 t + 4999) by the whole [3, 32] weight matrix and writes the [5000, 32] product back as block t of
  the [100000, 32] result. Entry (p, q) of that block product is the sum over k of x(5000 t + p, k) · w(k, q) — the
  narrowing of the operands to bf16 is the identity on the extended reals, and the accumulator starts at zero — which is
  entry (5000 t + p, q) of the whole product `rowsTimes x w`. The 20 blocks tile the result, so the result array ends
  holding `rowsTimes x w` of the two arrays as the launch finds them.
-/
import proofs.«123987_j11390253269710_2_alg».proof.Proof.Gen.KernelIdeal.Frame
import proofs.«123987_j11390253269710_2_alg».proof.Proof.LibRowsTimes
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionOut

open Cert.KernelIdeal Cert.KernelIdeal.Gen Idealize.ShloMosaic.RowsTimes

variable (V : (c : Dev nD) → (b : Ref sig .tc) → Buf (Elt Ideal) ((c : Thread nD τ).loc b))

/-- The feature array and the weight array as the launch finds them, as real-valued arrays. -/
abbrev xs0 (c : Dev nD) : S100000x3.Idx → EReal := V c main_arg0
abbrev ws0 (c : Dev nD) : S3x32.Idx → EReal := V c main_arg2

theorem zero_offsets : (![0, 0] : Fin 2 → Nat) = fun _ => 0 := funext fun a => by fin_cases a <;> rfl

/-- The block's product at an entry: the plain sum of products of the two loaded blocks. -/
theorem pay0_apply (x0 : Vec Ideal S5000x3 .f32) (x1 : Vec Ideal S3x32 .f32) (p : Fin 5000) (q : Fin 32) :
    k0_pay1 (F := Ideal) x0 x1 (ix2 p q) = ∑ k : Fin 3, x0 (ix2 p k) * x1 (ix2 k q) := by
  unfold k0_pay1
  exact matmul_zero_apply dot_S5000x3_S3x32_S5000x32_1_0_0_1_n_n rfl rfl rfl rfl rfl rfl rfl rfl none _ _ p q

/-- The index maps over the grid: the feature and result blocks move down the node axis with the point, the weight
    block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 5000 t … of the feature array. -/
theorem xblk0_apply (c : Dev nD) (t : Fin cfg0.N) (y : S5000x3.Idx) (i : S100000x3.Idx)
    (h0 : (i 0).val = 5000 * t.val + (y 0).val) (h1 : (i 1).val = (y 1).val) :
    (iblk0 V c 0 t : Vec Ideal S5000x3 .f32) y = xs0 V c i := by
  obtain ⟨e0, e1, -, -, -, -⟩ := idx0 t
  unfold iblk0
  rw [View.read_apply]
  show V c main_arg0 _ = V c main_arg0 _
  refine congrArg _ ?_
  funext a
  apply Fin.ext
  match a with
  | ⟨0, _⟩ => show win0_0.index t (0 : Fin 2) * 5000 + 1 * (y 0).val = (i 0).val; omega
  | ⟨1, _⟩ => show win0_0.index t (1 : Fin 2) * 3 + 1 * (y 1).val = (i 1).val; omega

/-- The weight block at every point is the whole weight array. -/
theorem wblk0_apply (c : Dev nD) (t : Fin cfg0.N) (y : S3x32.Idx) :
    (iblk0 V c 1 t : Vec Ideal S3x32 .f32) y = ws0 V c y := by
  obtain ⟨-, -, e2, e3, -, -⟩ := idx0 t
  unfold iblk0
  rw [View.read_apply]
  show V c main_arg2 _ = V c main_arg2 _
  refine congrArg _ ?_
  funext a
  apply Fin.ext
  match a with
  | ⟨0, _⟩ => show win0_1.index t (0 : Fin 2) * 3 + 1 * (y 0).val = (y 0).val; omega
  | ⟨1, _⟩ => show win0_1.index t (1 : Fin 2) * 32 + 1 * (y 1).val = (y 1).val; omega

/-- The whole product of the two arrays as the launch finds them. -/
abbrev prod0 (c : Dev nD) : S100000x32.Idx → EReal :=
  rowsTimes (M := 100000) (K := 3) (N := 32) (xs0 V c) (ws0 V c)

/-- What point t writes back is block t of the whole product. -/
theorem flushed0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero zero_offsets]
  simp only [View.ld_unit_zero (S := S5000x3) zero_offsets, View.ld_unit_zero (S := S3x32) zero_offsets]
  obtain ⟨-, -, -, -, e4, e5⟩ := idx0 t
  funext j
  obtain ⟨p, q, rfl⟩ : ∃ (p : Fin 5000) (q : Fin 32), j = ix2 p q := ⟨j 0, j 1, eq_ix2 j⟩
  refine (pay0_apply _ _ p q).trans ?_
  rw [View.read_apply]
  show _ = ∑ k : Fin 3, xs0 V c (ix2 ((((cfg0.win 2).blk t).view.emb (ix2 p q)) 0) k)
      * ws0 V c (ix2 k ((((cfg0.win 2).blk t).view.emb (ix2 p q)) 1))
  refine Finset.sum_congr rfl fun k _ => ?_
  refine congrArg₂ (· * ·) ?_ ?_
  · refine xblk0_apply V c t (ix2 p k) _ ?_ rfl
    show win0_2.index t (0 : Fin 2) * 5000 + 1 * p.val = 5000 * t.val + p.val
    omega
  · refine (wblk0_apply V c t (ix2 k q)).trans (congrArg _ ?_)
    funext a
    apply Fin.ext
    match a with
    | ⟨0, _⟩ => rfl
    | ⟨1, _⟩ => show q.val = win0_2.index t (1 : Fin 2) * 32 + 1 * q.val; omega

/-- An index of the result is in point t's block iff each coordinate is in the block's range on its axis. -/
theorem mem_blk0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- Row r of the result lies in the block of point r / 5000. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨-, -, -, -, e4, e5⟩ := idx0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- THE FIRST PRODUCT: after the launch the result array holds the whole product of the feature and weight arrays
    as the launch finds them. -/
theorem region0_out (c : Dev nD) : (dat0 V c).arrAt 2 cfg0.N = prod0 V c :=
  (dat0 V c).arrAt_eq_of_cover 2 (prod0 V c) (fun t _ => flushed0 V c t) cover0

end Cert.KernelIdeal.RegionOut

end
-- ==== Proof.MatRegion2.lean ====
/-
  The second dense layer's product, block by block.

  The node axis of the [100000, 32] feature matrix is cut into 20 blocks of 5000 rows; grid point t multiplies block t
  (rows 5000 t … 5000 t + 4999) by the whole [32, 32] weight matrix and writes the [5000, 32] product back as block t of
  the [100000, 32] result. Entry (p, q) of that block product is the sum over k of x(5000 t + p, k) · w(k, q) — the
  narrowing of the operands to bf16 is the identity on the extended reals, and the accumulator starts at zero — which is
  entry (5000 t + p, q) of the whole product `rowsTimes x w`. The 20 blocks tile the result, so the result array ends
  holding `rowsTimes x w` of the two arrays as the launch finds them.
-/
import proofs.«123987_j11390253269710_2_alg».proof.Proof.Gen.KernelIdeal.Frame
import proofs.«123987_j11390253269710_2_alg».proof.Proof.LibRowsTimes
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionOut

open Cert.KernelIdeal Cert.KernelIdeal.Gen Idealize.ShloMosaic.RowsTimes

variable (V : (c : Dev nD) → (b : Ref sig .tc) → Buf (Elt Ideal) ((c : Thread nD τ).loc b))

/-- The feature array and the weight array as the launch finds them, as real-valued arrays. -/
abbrev xs2 (c : Dev nD) : S100000x32.Idx → EReal := V c main_v44
abbrev ws2 (c : Dev nD) : S32x32.Idx → EReal := V c main_arg4

theorem zero_offsets2 : (![0, 0] : Fin 2 → Nat) = fun _ => 0 := funext fun a => by fin_cases a <;> rfl

/-- The block's product at an entry: the plain sum of products of the two loaded blocks. -/
theorem pay2_apply (x0 : Vec Ideal S5000x32 .f32) (x1 : Vec Ideal S32x32 .f32) (p : Fin 5000) (q : Fin 32) :
    k2_pay1 (F := Ideal) x0 x1 (ix2 p q) = ∑ k : Fin 32, x0 (ix2 p k) * x1 (ix2 k q) := by
  unfold k2_pay1
  rw [shapeCast_self]
  exact matmul_zero_apply dot_S5000x32_S32x32_S5000x32_1_0_0_1_n_n rfl rfl rfl rfl rfl rfl rfl rfl none _ _ p q

/-- The index maps over the grid: the feature and result blocks move down the node axis with the point, the weight
    block stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point t is rows 5000 t … of the feature array. -/
theorem xblk2_apply (c : Dev nD) (t : Fin cfg2.N) (y : S5000x32.Idx) (i : S100000x32.Idx)
    (h0 : (i 0).val = 5000 * t.val + (y 0).val) (h1 : (i 1).val = (y 1).val) :
    (iblk2 V c 0 t : Vec Ideal S5000x32 .f32) y = xs2 V c i := by
  obtain ⟨e0, e1, -, -, -, -⟩ := idx2 t
  unfold iblk2
  rw [View.read_apply]
  show V c main_v44 _ = V c main_v44 _
  refine congrArg _ ?_
  funext a
  apply Fin.ext
  match a with
  | ⟨0, _⟩ => show win2_0.index t (0 : Fin 2) * 5000 + 1 * (y 0).val = (i 0).val; omega
  | ⟨1, _⟩ => show win2_0.index t (1 : Fin 2) * 32 + 1 * (y 1).val = (i 1).val; omega

/-- The weight block at every point is the whole weight array. -/
theorem wblk2_apply (c : Dev nD) (t : Fin cfg2.N) (y : S32x32.Idx) :
    (iblk2 V c 1 t : Vec Ideal S32x32 .f32) y = ws2 V c y := by
  obtain ⟨-, -, e2, e3, -, -⟩ := idx2 t
  unfold iblk2
  rw [View.read_apply]
  show V c main_arg4 _ = V c main_arg4 _
  refine congrArg _ ?_
  funext a
  apply Fin.ext
  match a with
  | ⟨0, _⟩ => show win2_1.index t (0 : Fin 2) * 32 + 1 * (y 0).val = (y 0).val; omega
  | ⟨1, _⟩ => show win2_1.index t (1 : Fin 2) * 32 + 1 * (y 1).val = (y 1).val; omega

/-- The whole product of the two arrays as the launch finds them. -/
abbrev prod2 (c : Dev nD) : S100000x32.Idx → EReal :=
  rowsTimes (M := 100000) (K := 32) (N := 32) (xs2 V c) (ws2 V c)

/-- What point t writes back is block t of the whole product. -/
theorem flushed2 (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  unfold out2_2
  rw [View.canon_unit_zero zero_offsets2]
  simp only [View.ld_unit_zero (S := S5000x32) zero_offsets2, View.ld_unit_zero (S := S32x32) zero_offsets2]
  obtain ⟨-, -, -, -, e4, e5⟩ := idx2 t
  funext j
  obtain ⟨p, q, rfl⟩ : ∃ (p : Fin 5000) (q : Fin 32), j = ix2 p q := ⟨j 0, j 1, eq_ix2 j⟩
  refine (pay2_apply _ _ p q).trans ?_
  rw [View.read_apply]
  show _ = ∑ k : Fin 32, xs2 V c (ix2 ((((cfg2.win 2).blk t).view.emb (ix2 p q)) 0) k)
      * ws2 V c (ix2 k ((((cfg2.win 2).blk t).view.emb (ix2 p q)) 1))
  refine Finset.sum_congr rfl fun k _ => ?_
  refine congrArg₂ (· * ·) ?_ ?_
  · refine xblk2_apply V c t (ix2 p k) _ ?_ rfl
    show win2_2.index t (0 : Fin 2) * 5000 + 1 * p.val = 5000 * t.val + p.val
    omega
  · refine (wblk2_apply V c t (ix2 k q)).trans (congrArg _ ?_)
    funext a
    apply Fin.ext
    match a with
    | ⟨0, _⟩ => rfl
    | ⟨1, _⟩ => show q.val = win2_2.index t (1 : Fin 2) * 32 + 1 * q.val; omega

/-- An index of the result is in point t's block iff each coordinate is in the block's range on its axis. -/
theorem mem_blk2 (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v45).slice (win2_2.rect t)).set ↔ _
  rw [View.set_slice_whole, Rect.mem_set_unit]
  exact Iff.rfl

/-- Row r of the result lies in the block of point r / 5000. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  obtain ⟨-, -, -, -, e4, e5⟩ := idx2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- THE SECOND PRODUCT: after the launch the result array holds the whole product of the feature and weight arrays
    as the launch finds them. -/
theorem region2_out (c : Dev nD) : (dat2 V c).arrAt 2 cfg2.N = prod2 V c :=
  (dat2 V c).arrAt_eq_of_cover 2 (prod2 V c) (fun t _ => flushed2 V c t) cover2

end Cert.KernelIdeal.RegionOut

end
-- ==== Proof.MatRegion4.lean ====
/-
  The third dense layer's product, block by block.

  The node axis of the [100000, 32] feature matrix is cut into 20 blocks of 5000 rows; grid point t multiplies block t
  (rows 5000 t … 5000 t + 4999) by the whole [32, 1] weight matrix and writes the [5000, 1] product back as block t of
  the [100000, 1] result. Entry (p, q) of that block product is the sum over k of x(5000 t + p, k) · w(k, q) — the
  narrowing of the operands to bf16 is the identity on the extended reals, and the accumulator starts at zero — which is
  entry (5000 t + p, q) of the whole product `rowsTimes x w`. The 20 blocks tile the result, so the result array ends
  holding `rowsTimes x w` of the two arrays as the launch finds them.
-/
import proofs.«123987_j11390253269710_2_alg».proof.Proof.Gen.KernelIdeal.Frame
import proofs.«123987_j11390253269710_2_alg».proof.Proof.LibRowsTimes
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionOut

open Cert.KernelIdeal Cert.KernelIdeal.Gen Idealize.ShloMosaic.RowsTimes

variable (V : (c : Dev nD) → (b : Ref sig .tc) → Buf (Elt Ideal) ((c : Thread nD τ).loc b))

/-- The feature array and the weight array as the launch finds them, as real-valued arrays. -/
abbrev xs4 (c : Dev nD) : S100000x32.Idx → EReal := V c main_v59
abbrev ws4 (c : Dev nD) : S32x1.Idx → EReal := V c main_arg6

theorem zero_offsets4 : (![0, 0] : Fin 2 → Nat) = fun _ => 0 := funext fun a => by fin_cases a <;> rfl

/-- The block's product at an entry: the plain sum of products of the two loaded blocks. -/
theorem pay4_apply (x0 : Vec Ideal S5000x32 .f32) (x1 : Vec Ideal S32x1 .f32) (p : Fin 5000) (q : Fin 1) :
    k4_pay1 (F := Ideal) x0 x1 (ix2 p q) = ∑ k : Fin 32, x0 (ix2 p k) * x1 (ix2 k q) := by
  unfold k4_pay1
  rw [shapeCast_self]
  exact matmul_zero_apply dot_S5000x32_S32x1_S5000x1_1_0_0_1_n_n rfl rfl rfl rfl rfl rfl rfl rfl none _ _ p q

/-- The index maps over the grid: the feature and result blocks move down the node axis with the point, the weight
    block stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature block at point t is rows 5000 t … of the feature array. -/
theorem xblk4_apply (c : Dev nD) (t : Fin cfg4.N) (y : S5000x32.Idx) (i : S100000x32.Idx)
    (h0 : (i 0).val = 5000 * t.val + (y 0).val) (h1 : (i 1).val = (y 1).val) :
    (iblk4 V c 0 t : Vec Ideal S5000x32 .f32) y = xs4 V c i := by
  obtain ⟨e0, e1, -, -, -, -⟩ := idx4 t
  unfold iblk4
  rw [View.read_apply]
  show V c main_v59 _ = V c main_v59 _
  refine congrArg _ ?_
  funext a
  apply Fin.ext
  match a with
  | ⟨0, _⟩ => show win4_0.index t (0 : Fin 2) * 5000 + 1 * (y 0).val = (i 0).val; omega
  | ⟨1, _⟩ => show win4_0.index t (1 : Fin 2) * 1 + 1 * (y 1).val = (i 1).val; omega

/-- The weight block at every point is the whole weight array. -/
theorem wblk4_apply (c : Dev nD) (t : Fin cfg4.N) (y : S32x1.Idx) :
    (iblk4 V c 1 t : Vec Ideal S32x1 .f32) y = ws4 V c y := by
  obtain ⟨-, -, e2, e3, -, -⟩ := idx4 t
  unfold iblk4
  rw [View.read_apply]
  show V c main_arg6 _ = V c main_arg6 _
  refine congrArg _ ?_
  funext a
  apply Fin.ext
  match a with
  | ⟨0, _⟩ => show win4_1.index t (0 : Fin 2) * 32 + 1 * (y 0).val = (y 0).val; omega
  | ⟨1, _⟩ => show win4_1.index t (1 : Fin 2) * 1 + 1 * (y 1).val = (y 1).val; omega

/-- The whole product of the two arrays as the launch finds them. -/
abbrev prod4 (c : Dev nD) : S100000x1.Idx → EReal :=
  rowsTimes (M := 100000) (K := 32) (N := 1) (xs4 V c) (ws4 V c)

/-- What point t writes back is block t of the whole product. -/
theorem flushed4 (c : Dev nD) (t : Fin cfg4.N) :
    (dat4 V c).flushed 2 t = ((cfg4.win 2).blk t).view.read (Elt Ideal) (prod4 V c) := by
  show (cfg4.win 2).cut (grid4.coords t) ((dat4 V c).after 2 t) = _
  rw [after4_2]
  unfold out4_2
  rw [View.canon_unit_zero zero_offsets4]
  simp only [View.ld_unit_zero (S := S5000x32) zero_offsets4, View.ld_unit_zero (S := S32x1) zero_offsets4]
  obtain ⟨-, -, -, -, e4, e5⟩ := idx4 t
  funext j
  obtain ⟨p, q, rfl⟩ : ∃ (p : Fin 5000) (q : Fin 1), j = ix2 p q := ⟨j 0, j 1, eq_ix2 j⟩
  refine (pay4_apply _ _ p q).trans ?_
  rw [View.read_apply]
  show _ = ∑ k : Fin 32, xs4 V c (ix2 ((((cfg4.win 2).blk t).view.emb (ix2 p q)) 0) k)
      * ws4 V c (ix2 k ((((cfg4.win 2).blk t).view.emb (ix2 p q)) 1))
  refine Finset.sum_congr rfl fun k _ => ?_
  refine congrArg₂ (· * ·) ?_ ?_
  · refine xblk4_apply V c t (ix2 p k) _ ?_ rfl
    show win4_2.index t (0 : Fin 2) * 5000 + 1 * p.val = 5000 * t.val + p.val
    omega
  · refine (wblk4_apply V c t (ix2 k q)).trans (congrArg _ ?_)
    funext a
    apply Fin.ext
    match a with
    | ⟨0, _⟩ => rfl
    | ⟨1, _⟩ => show q.val = win4_2.index t (1 : Fin 2) * 1 + 1 * q.val; omega

/-- An index of the result is in point t's block iff each coordinate is in the block's range on its axis. -/
theorem mem_blk4 (t : Fin cfg4.N) (i : S100000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v60).slice (win4_2.rect t)).set ↔ _
  rw [View.set_slice_whole, Rect.mem_set_unit]
  exact Iff.rfl

/-- Row r of the result lies in the block of point r / 5000. -/
theorem cover4 (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 20 := N_4
  let t : Fin cfg4.N := ⟨(i 0).val / 5000, by rw [hN]; omega⟩
  obtain ⟨-, -, -, -, e4, e5⟩ := idx4 t
  have ht : t.val = (i 0).val / 5000 := rfl
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 1 ≤ (i 1).val ∧ (i 1).val < win4_2.index t (1 : Fin 2) * 1 + 1; omega

/-- THE THIRD PRODUCT: after the launch the result array holds the whole product of the feature and weight arrays
    as the launch finds them. -/
theorem region4_out (c : Dev nD) : (dat4 V c).arrAt 2 cfg4.N = prod4 V c :=
  (dat4 V c).arrAt_eq_of_cover 2 (prod4 V c) (fun t _ => flushed4 V c t) cover4

end Cert.KernelIdeal.RegionOut

end
-- ==== Proof.BiasRegion1.lean ====
/-
  A bias row added to the aggregated features and clamped at zero from below, block by block (launch 1).

  The node axis of the [100000, 32] array is cut into 20 blocks of 5000 rows; grid point t adds the [32] bias vector to
  every row of block t, takes the maximum with zero, and writes the block back in place of block t of the result. Entry
  (p, q) of what it writes is max (x(5000 t + p, q) + b(q)) 0, which is entry (5000 t + p, q) of `reluAddRow x b'` for the
  bias reshaped to one row b'. The 20 blocks tile the result, so the result array ends holding `reluAddRow x b'` of the
  two arrays as the launch finds them.
-/
import proofs.«123987_j11390253269710_2_alg».proof.Proof.Gen.KernelIdeal.Frame
import proofs.«123987_j11390253269710_2_alg».proof.Proof.LibRowBias
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionOut

open Cert.KernelIdeal Cert.KernelIdeal.Gen Cert.RowBias

variable (V : (c : Dev nD) → (b : Ref sig .tc) → Buf (Elt Ideal) ((c : Thread nD τ).loc b))

/-- The aggregated features and the bias vector as the launch finds them, as real-valued arrays. -/
abbrev xs1 (c : Dev nD) : S100000x32.Idx → EReal := V c main_v43
abbrev bs1 (c : Dev nD) : S32.Idx → EReal := V c main_arg3

theorem zero_offsets1 : (![0, 0] : Fin 2 → Nat) = fun _ => 0 := funext fun a => by fin_cases a <;> rfl
theorem zero_offset1 : (![0] : Fin 1 → Nat) = fun _ => 0 := funext fun a => by fin_cases a; rfl

/-- What the body stores, at an entry: the loaded entry plus the bias at its column, clamped at zero from below. -/
theorem pay1_apply (x0 : Vec Ideal S5000x32 .f32) (x1 : Vec Ideal S32 .f32) (p : Fin 5000) (q : Fin 32) :
    k1_pay1 (F := Ideal) x0 x1 (ix2 p q) = max (x0 (ix2 p q) + x1 (ix1 q)) (Ideal.ofBits .f32 0x00000000#32) := by
  unfold k1_pay1
  show max (shapeCast S5000x32 x0 shapeCasts_S5000x32_S5000x32 (ix2 p q)
      + broadcastTo S5000x32 (shapeCast S1x32 x1 shapeCasts_S32_S1x32) broadcasts_S1x32_S5000x32 (ix2 p q)) (Ideal.ofBits .f32 0x00000000#32) = _
  rw [shapeCast_self, broadcastTo_1b_ab_apply, shapeCast_a_1a_apply]

/-- The index maps over the grid: the feature and result blocks move down the node axis with the point, the bias
    block stays. -/
theorem idx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The feature block at point t is rows 5000 t … of the feature array. -/
theorem xblk1_apply (c : Dev nD) (t : Fin cfg1.N) (y : S5000x32.Idx) (i : S100000x32.Idx)
    (h0 : (i 0).val = 5000 * t.val + (y 0).val) (h1 : (i 1).val = (y 1).val) :
    (iblk1 V c 0 t : Vec Ideal S5000x32 .f32) y = (xs1 V c) i := by
  obtain ⟨e0, e1, -, -, -⟩ := idx1 t
  unfold iblk1
  rw [View.read_apply]
  show V c main_v43 _ = V c main_v43 _
  refine congrArg _ ?_
  funext a
  apply Fin.ext
  match a with
  | ⟨0, _⟩ => show win1_0.index t (0 : Fin 2) * 5000 + 1 * (y 0).val = (i 0).val; omega
  | ⟨1, _⟩ => show win1_0.index t (1 : Fin 2) * 32 + 1 * (y 1).val = (i 1).val; omega

/-- The bias block at every point is the whole bias vector. -/
theorem bblk1_apply (c : Dev nD) (t : Fin cfg1.N) (y : S32.Idx) :
    (iblk1 V c 1 t : Vec Ideal S32 .f32) y = (bs1 V c) y := by
  obtain ⟨-, -, e2, -, -⟩ := idx1 t
  unfold iblk1
  rw [View.read_apply]
  show V c main_arg3 _ = V c main_arg3 _
  refine congrArg _ ?_
  funext a
  apply Fin.ext
  match a with
  | ⟨0, _⟩ => show win1_1.index t (0 : Fin 1) * 32 + 1 * (y 0).val = (y 0).val; omega

/-- The whole result: the bias, reshaped to one row, added to every row of the array as the launch finds it, clamped. -/
abbrev biased1 (c : Dev nD) : S100000x32.Idx → EReal :=
  reluAddRow (a := 100000) (b := 32) (xs1 V c) (shapeCast S1x32 (bs1 V c) shapeCasts_S32_S1x32)

/-- What point t writes back is block t of the whole result. -/
theorem flushed1 (c : Dev nD) (t : Fin cfg1.N) :
    (dat1 V c).flushed 2 t = ((cfg1.win 2).blk t).view.read (Elt Ideal) (biased1 V c) := by
  show (cfg1.win 2).cut (grid1.coords t) ((dat1 V c).after 2 t) = _
  rw [after1_2]
  unfold out1_2
  rw [View.canon_unit_zero zero_offsets1]
  simp only [View.ld_unit_zero (S := S5000x32) zero_offsets1, View.ld_unit_zero (S := S32) zero_offset1]
  obtain ⟨-, -, -, e3, e4⟩ := idx1 t
  funext j
  obtain ⟨p, q, rfl⟩ : ∃ (p : Fin 5000) (q : Fin 32), j = ix2 p q := ⟨j 0, j 1, eq_ix2 j⟩
  refine (pay1_apply _ _ p q).trans ?_
  rw [View.read_apply]
  have hq : (((cfg1.win 2).blk t).view.emb (ix2 p q)) 1 = q := by
    apply Fin.ext
    show win1_2.index t (1 : Fin 2) * 32 + 1 * q.val = q.val
    omega
  show _ = max ((xs1 V c) (((cfg1.win 2).blk t).view.emb (ix2 p q))
      + shapeCast S1x32 (bs1 V c) shapeCasts_S32_S1x32 (ix2 (0 : Fin 1) ((((cfg1.win 2).blk t).view.emb (ix2 p q)) 1))) (Ideal.ofBits .f32 0x00000000#32)
  rw [hq, shapeCast_a_1a_apply, xblk1_apply V c t (ix2 p q) (((cfg1.win 2).blk t).view.emb (ix2 p q)) ?_ ?_, bblk1_apply V c t (ix1 q)]
  · show win1_2.index t (0 : Fin 2) * 5000 + 1 * p.val = 5000 * t.val + p.val
    omega
  · show win1_2.index t (1 : Fin 2) * 32 + 1 * q.val = q.val
    omega

/-- An index of the result is in point t's block iff each coordinate is in the block's range on its axis. -/
theorem mem_blk1 (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v44).slice (win1_2.rect t)).set ↔ _
  rw [View.set_slice_whole, Rect.mem_set_unit]
  exact Iff.rfl

/-- Row r of the result lies in the block of point r / 5000. -/
theorem cover1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨-, -, -, e3, e4⟩ := idx1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- After the launch the result array holds the whole biased, clamped array. -/
theorem region1_out (c : Dev nD) : (dat1 V c).arrAt 2 cfg1.N = biased1 V c :=
  (dat1 V c).arrAt_eq_of_cover 2 (biased1 V c) (fun t _ => flushed1 V c t) cover1

end Cert.KernelIdeal.RegionOut

end
-- ==== Proof.BiasRegion3.lean ====
/-
  A bias row added to the aggregated features and clamped at zero from below, block by block (launch 3).

  The node axis of the [100000, 32] array is cut into 20 blocks of 5000 rows; grid point t adds the [32] bias vector to
  every row of block t, takes the maximum with zero, and writes the block back in place of block t of the result. Entry
  (p, q) of what it writes is max (x(5000 t + p, q) + b(q)) 0, which is entry (5000 t + p, q) of `reluAddRow x b'` for the
  bias reshaped to one row b'. The 20 blocks tile the result, so the result array ends holding `reluAddRow x b'` of the
  two arrays as the launch finds them.
-/
import proofs.«123987_j11390253269710_2_alg».proof.Proof.Gen.KernelIdeal.Frame
import proofs.«123987_j11390253269710_2_alg».proof.Proof.LibRowBias
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionOut

open Cert.KernelIdeal Cert.KernelIdeal.Gen Cert.RowBias

variable (V : (c : Dev nD) → (b : Ref sig .tc) → Buf (Elt Ideal) ((c : Thread nD τ).loc b))

/-- The aggregated features and the bias vector as the launch finds them, as real-valued arrays. -/
abbrev xs3 (c : Dev nD) : S100000x32.Idx → EReal := V c main_v58
abbrev bs3 (c : Dev nD) : S32.Idx → EReal := V c main_arg5

theorem zero_offsets3 : (![0, 0] : Fin 2 → Nat) = fun _ => 0 := funext fun a => by fin_cases a <;> rfl
theorem zero_offset3 : (![0] : Fin 1 → Nat) = fun _ => 0 := funext fun a => by fin_cases a; rfl

/-- What the body stores, at an entry: the loaded entry plus the bias at its column, clamped at zero from below. -/
theorem pay3_apply (x0 : Vec Ideal S5000x32 .f32) (x1 : Vec Ideal S32 .f32) (p : Fin 5000) (q : Fin 32) :
    k3_pay1 (F := Ideal) x0 x1 (ix2 p q) = max (x0 (ix2 p q) + x1 (ix1 q)) (Ideal.ofBits .f32 0x00000000#32) := by
  unfold k3_pay1
  show max (shapeCast S5000x32 x0 shapeCasts_S5000x32_S5000x32 (ix2 p q)
      + broadcastTo S5000x32 (shapeCast S1x32 x1 shapeCasts_S32_S1x32) broadcasts_S1x32_S5000x32 (ix2 p q)) (Ideal.ofBits .f32 0x00000000#32) = _
  rw [shapeCast_self, broadcastTo_1b_ab_apply, shapeCast_a_1a_apply]

/-- The index maps over the grid: the feature and result blocks move down the node axis with the point, the bias
    block stays. -/
theorem idx3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The feature block at point t is rows 5000 t … of the feature array. -/
theorem xblk3_apply (c : Dev nD) (t : Fin cfg3.N) (y : S5000x32.Idx) (i : S100000x32.Idx)
    (h0 : (i 0).val = 5000 * t.val + (y 0).val) (h1 : (i 1).val = (y 1).val) :
    (iblk3 V c 0 t : Vec Ideal S5000x32 .f32) y = (xs3 V c) i := by
  obtain ⟨e0, e1, -, -, -⟩ := idx3 t
  unfold iblk3
  rw [View.read_apply]
  show V c main_v58 _ = V c main_v58 _
  refine congrArg _ ?_
  funext a
  apply Fin.ext
  match a with
  | ⟨0, _⟩ => show win3_0.index t (0 : Fin 2) * 5000 + 1 * (y 0).val = (i 0).val; omega
  | ⟨1, _⟩ => show win3_0.index t (1 : Fin 2) * 32 + 1 * (y 1).val = (i 1).val; omega

/-- The bias block at every point is the whole bias vector. -/
theorem bblk3_apply (c : Dev nD) (t : Fin cfg3.N) (y : S32.Idx) :
    (iblk3 V c 1 t : Vec Ideal S32 .f32) y = (bs3 V c) y := by
  obtain ⟨-, -, e2, -, -⟩ := idx3 t
  unfold iblk3
  rw [View.read_apply]
  show V c main_arg5 _ = V c main_arg5 _
  refine congrArg _ ?_
  funext a
  apply Fin.ext
  match a with
  | ⟨0, _⟩ => show win3_1.index t (0 : Fin 1) * 32 + 1 * (y 0).val = (y 0).val; omega

/-- The whole result: the bias, reshaped to one row, added to every row of the array as the launch finds it, clamped. -/
abbrev biased3 (c : Dev nD) : S100000x32.Idx → EReal :=
  reluAddRow (a := 100000) (b := 32) (xs3 V c) (shapeCast S1x32 (bs3 V c) shapeCasts_S32_S1x32)

/-- What point t writes back is block t of the whole result. -/
theorem flushed3 (c : Dev nD) (t : Fin cfg3.N) :
    (dat3 V c).flushed 2 t = ((cfg3.win 2).blk t).view.read (Elt Ideal) (biased3 V c) := by
  show (cfg3.win 2).cut (grid3.coords t) ((dat3 V c).after 2 t) = _
  rw [after3_2]
  unfold out3_2
  rw [View.canon_unit_zero zero_offsets3]
  simp only [View.ld_unit_zero (S := S5000x32) zero_offsets3, View.ld_unit_zero (S := S32) zero_offset3]
  obtain ⟨-, -, -, e3, e4⟩ := idx3 t
  funext j
  obtain ⟨p, q, rfl⟩ : ∃ (p : Fin 5000) (q : Fin 32), j = ix2 p q := ⟨j 0, j 1, eq_ix2 j⟩
  refine (pay3_apply _ _ p q).trans ?_
  rw [View.read_apply]
  have hq : (((cfg3.win 2).blk t).view.emb (ix2 p q)) 1 = q := by
    apply Fin.ext
    show win3_2.index t (1 : Fin 2) * 32 + 1 * q.val = q.val
    omega
  show _ = max ((xs3 V c) (((cfg3.win 2).blk t).view.emb (ix2 p q))
      + shapeCast S1x32 (bs3 V c) shapeCasts_S32_S1x32 (ix2 (0 : Fin 1) ((((cfg3.win 2).blk t).view.emb (ix2 p q)) 1))) (Ideal.ofBits .f32 0x00000000#32)
  rw [hq, shapeCast_a_1a_apply, xblk3_apply V c t (ix2 p q) (((cfg3.win 2).blk t).view.emb (ix2 p q)) ?_ ?_, bblk3_apply V c t (ix1 q)]
  · show win3_2.index t (0 : Fin 2) * 5000 + 1 * p.val = 5000 * t.val + p.val
    omega
  · show win3_2.index t (1 : Fin 2) * 32 + 1 * q.val = q.val
    omega

/-- An index of the result is in point t's block iff each coordinate is in the block's range on its axis. -/
theorem mem_blk3 (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v59).slice (win3_2.rect t)).set ↔ _
  rw [View.set_slice_whole, Rect.mem_set_unit]
  exact Iff.rfl

/-- Row r of the result lies in the block of point r / 5000. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  let t : Fin cfg3.N := ⟨(i 0).val / 5000, by rw [hN]; omega⟩
  obtain ⟨-, -, -, e3, e4⟩ := idx3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- After the launch the result array holds the whole biased, clamped array. -/
theorem region3_out (c : Dev nD) : (dat3 V c).arrAt 2 cfg3.N = biased3 V c :=
  (dat3 V c).arrAt_eq_of_cover 2 (biased3 V c) (fun t _ => flushed3 V c t) cover3

end Cert.KernelIdeal.RegionOut

end
-- ==== Proof.BiasRegion5.lean ====
/-
  A bias added to every row of the aggregated features, block by block (launch 5).

  The node axis of the [100000, 1] array is cut into 20 blocks of 5000 rows; grid point t adds the [1] bias vector to
  every row of block t and writes the block back in place of block t of the result. Entry (p, q) of what it writes is
  x(5000 t + p, q) + b(q), which is entry (5000 t + p, q) of `addRow x b'` for the bias reshaped to one row b'. The 20
  blocks tile the result, so the result array ends holding `addRow x b'` of the two arrays as the launch finds them.
-/
import proofs.«123987_j11390253269710_2_alg».proof.Proof.Gen.KernelIdeal.Frame
import proofs.«123987_j11390253269710_2_alg».proof.Proof.LibRowBias
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionOut

open Cert.KernelIdeal Cert.KernelIdeal.Gen Cert.RowBias

variable (V : (c : Dev nD) → (b : Ref sig .tc) → Buf (Elt Ideal) ((c : Thread nD τ).loc b))

/-- The aggregated features and the bias vector as the launch finds them, as real-valued arrays. -/
abbrev xs5 (c : Dev nD) : S100000x1.Idx → EReal := V c main_v72
abbrev bs5 (c : Dev nD) : S1.Idx → EReal := V c main_arg7

theorem zero_offsets5 : (![0, 0] : Fin 2 → Nat) = fun _ => 0 := funext fun a => by fin_cases a <;> rfl
theorem zero_offset5 : (![0] : Fin 1 → Nat) = fun _ => 0 := funext fun a => by fin_cases a; rfl

/-- What the body stores, at an entry: the loaded entry plus the bias at its column. -/
theorem pay5_apply (x0 : Vec Ideal S5000x1 .f32) (x1 : Vec Ideal S1 .f32) (p : Fin 5000) (q : Fin 1) :
    k5_pay1 (F := Ideal) x0 x1 (ix2 p q) = x0 (ix2 p q) + x1 (ix1 q) := by
  unfold k5_pay1
  show shapeCast S5000x1 x0 shapeCasts_S5000x1_S5000x1 (ix2 p q)
      + broadcastTo S5000x1 (shapeCast S1x1 x1 shapeCasts_S1_S1x1) broadcasts_S1x1_S5000x1 (ix2 p q) = _
  rw [shapeCast_self, broadcastTo_1b_ab_apply, shapeCast_a_1a_apply]

/-- The index maps over the grid: the feature and result blocks move down the node axis with the point, the bias
    block stays. -/
theorem idx5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- The feature block at point t is rows 5000 t … of the feature array. -/
theorem xblk5_apply (c : Dev nD) (t : Fin cfg5.N) (y : S5000x1.Idx) (i : S100000x1.Idx)
    (h0 : (i 0).val = 5000 * t.val + (y 0).val) (h1 : (i 1).val = (y 1).val) :
    (iblk5 V c 0 t : Vec Ideal S5000x1 .f32) y = (xs5 V c) i := by
  obtain ⟨e0, e1, -, -, -⟩ := idx5 t
  unfold iblk5
  rw [View.read_apply]
  show V c main_v72 _ = V c main_v72 _
  refine congrArg _ ?_
  funext a
  apply Fin.ext
  match a with
  | ⟨0, _⟩ => show win5_0.index t (0 : Fin 2) * 5000 + 1 * (y 0).val = (i 0).val; omega
  | ⟨1, _⟩ => show win5_0.index t (1 : Fin 2) * 1 + 1 * (y 1).val = (i 1).val; omega

/-- The bias block at every point is the whole bias vector. -/
theorem bblk5_apply (c : Dev nD) (t : Fin cfg5.N) (y : S1.Idx) :
    (iblk5 V c 1 t : Vec Ideal S1 .f32) y = (bs5 V c) y := by
  obtain ⟨-, -, e2, -, -⟩ := idx5 t
  unfold iblk5
  rw [View.read_apply]
  show V c main_arg7 _ = V c main_arg7 _
  refine congrArg _ ?_
  funext a
  apply Fin.ext
  match a with
  | ⟨0, _⟩ => show win5_1.index t (0 : Fin 1) * 1 + 1 * (y 0).val = (y 0).val; omega

/-- The whole result: the bias, reshaped to one row, added to every row of the array as the launch finds it. -/
abbrev biased5 (c : Dev nD) : S100000x1.Idx → EReal :=
  addRow (a := 100000) (b := 1) (xs5 V c) (shapeCast S1x1 (bs5 V c) shapeCasts_S1_S1x1)

/-- What point t writes back is block t of the whole result. -/
theorem flushed5 (c : Dev nD) (t : Fin cfg5.N) :
    (dat5 V c).flushed 2 t = ((cfg5.win 2).blk t).view.read (Elt Ideal) (biased5 V c) := by
  show (cfg5.win 2).cut (grid5.coords t) ((dat5 V c).after 2 t) = _
  rw [after5_2]
  unfold out5_2
  rw [View.canon_unit_zero zero_offsets5]
  simp only [View.ld_unit_zero (S := S5000x1) zero_offsets5, View.ld_unit_zero (S := S1) zero_offset5]
  obtain ⟨-, -, -, e3, e4⟩ := idx5 t
  funext j
  obtain ⟨p, q, rfl⟩ : ∃ (p : Fin 5000) (q : Fin 1), j = ix2 p q := ⟨j 0, j 1, eq_ix2 j⟩
  refine (pay5_apply _ _ p q).trans ?_
  rw [View.read_apply]
  have hq : (((cfg5.win 2).blk t).view.emb (ix2 p q)) 1 = q := by
    apply Fin.ext
    show win5_2.index t (1 : Fin 2) * 1 + 1 * q.val = q.val
    omega
  show _ = ((xs5 V c) (((cfg5.win 2).blk t).view.emb (ix2 p q))
      + shapeCast S1x1 (bs5 V c) shapeCasts_S1_S1x1 (ix2 (0 : Fin 1) ((((cfg5.win 2).blk t).view.emb (ix2 p q)) 1)))
  rw [hq, shapeCast_a_1a_apply, xblk5_apply V c t (ix2 p q) (((cfg5.win 2).blk t).view.emb (ix2 p q)) ?_ ?_, bblk5_apply V c t (ix1 q)]
  · show win5_2.index t (0 : Fin 2) * 5000 + 1 * p.val = 5000 * t.val + p.val
    omega
  · show win5_2.index t (1 : Fin 2) * 1 + 1 * q.val = q.val
    omega

/-- An index of the result is in point t's block iff each coordinate is in the block's range on its axis. -/
theorem mem_blk5 (t : Fin cfg5.N) (i : S100000x1.Idx) :
    i ∈ ((cfg5.win 2).blk t).view.set ↔ ∀ a : Fin 2, win5_2.index t a * S5000x1.size a ≤ (i a).val ∧ (i a).val < win5_2.index t a * S5000x1.size a + S5000x1.size a := by
  show i ∈ ((View.whole main_v73).slice (win5_2.rect t)).set ↔ _
  rw [View.set_slice_whole, Rect.mem_set_unit]
  exact Iff.rfl

/-- Row r of the result lies in the block of point r / 5000. -/
theorem cover5 (i : S100000x1.Idx) :
    ∃ t : Fin cfg5.N, (cfg5.win 2).flush t = true ∧ i ∈ ((cfg5.win 2).blk t).view.set := by
  have hi0 : (i 0).val < 100000 := (i 0).isLt
  have hi1 : (i 1).val < 1 := (i 1).isLt
  have hN : cfg5.N = 20 := N_5
  let t : Fin cfg5.N := ⟨(i 0).val / 5000, by rw [hN]; omega⟩
  obtain ⟨-, -, -, e3, e4⟩ := idx5 t
  have ht : t.val = (i 0).val / 5000 := rfl
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 1 ≤ (i 1).val ∧ (i 1).val < win5_2.index t (1 : Fin 2) * 1 + 1; omega

/-- After the launch the result array holds the whole biased array. -/
theorem region5_out (c : Dev nD) : (dat5 V c).arrAt 2 cfg5.N = biased5 V c :=
  (dat5 V c).arrAt_eq_of_cover 2 (biased5 V c) (fun t _ => flushed5 V c t) cover5

end Cert.KernelIdeal.RegionOut

end
-- ==== Proof.Boundaries.lean ====
/-
  The kernel program's buffers, boundary by boundary.

  The program alternates host stretches with six blocked launches. Read from the launch memory forward, the buffers
  that matter hold, at the boundaries between segments: the edge lists with the self loops appended, and the edge
  weights, computed once before the first launch and never written again; after the first launch the product of the
  features with the first weight matrix; after the next host stretch its aggregation over the edges; after the second
  launch the first hidden layer (bias added, clamped); then the same for the second layer; and after the last launch
  the third layer without a clamp — the network's output. Each launch's result array is the whole-array function its
  blocks tile (the region modules); each host stretch's result is its operations' term of the buffers it reads; a
  buffer nobody writes in a segment keeps its contents across it. The products and bias stages meet the network's own
  stages by the plain-sum and row-addition forms of those stages.
-/
import proofs.«123987_j11390253269710_2_alg».proof.Proof.KernelRun
import proofs.«123987_j11390253269710_2_alg».proof.Proof.GcnLaws
import proofs.«123987_j11390253269710_2_alg».proof.Proof.MatRegion0
import proofs.«123987_j11390253269710_2_alg».proof.Proof.MatRegion2
import proofs.«123987_j11390253269710_2_alg».proof.Proof.MatRegion4
import proofs.«123987_j11390253269710_2_alg».proof.Proof.BiasRegion1
import proofs.«123987_j11390253269710_2_alg».proof.Proof.BiasRegion3
import proofs.«123987_j11390253269710_2_alg».proof.Proof.BiasRegion5
import Idealize.ShloMosaic.Lib.StableHlo.Run

noncomputable section

open Idealize.ShloMosaic Idealize.ShloMosaic.TcCoe Idealize.SL.Sem
open Idealize.ShloMosaic.Pipeline (Dat)
open Idealize.ShloMosaic.ValueIdx
open Idealize.ShloMosaic.StableHlo

namespace Cert.KernelIdeal.Boundaries

open Cert.KernelIdeal Cert.KernelIdeal.Gen Cert.KernelIdeal.RegionOut Idealize.ShloMosaic.RowsTimes Cert.RowBias

variable (m : (ℓ : Loc nD τ sig) → Buf (Elt Ideal) ℓ) (ρ : Dev nD → PrngReg)

/-- A buffer that no operation of a host stretch writes holds after the stretch what it held before. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The argument arrays as launched. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)

/-! ## Before the first launch: the edge lists and the edge weights -/

set_option maxHeartbeats 4000000 in
set_option maxRecDepth 8192 in
/-- After the first host stretch: the sources with the self loops appended. -/
theorem W1_src (c : Dev nD) : W1 m ρ c (Proc.devRef .tc main_v3) = Cert.Gcn.src (F := Ideal) (A1 m c) := by
  show StableHlo.after hostOps0 (W0 m ρ c) (Proc.devRef .tc main_v3) = _
  unfold Cert.Gcn.src
  after_results_simp <;> rfl

set_option maxHeartbeats 4000000 in
set_option maxRecDepth 8192 in
/-- The targets with the self loops appended. -/
theorem W1_dst (c : Dev nD) : W1 m ρ c (Proc.devRef .tc main_v6) = Cert.Gcn.dst (F := Ideal) (A1 m c) := by
  show StableHlo.after hostOps0 (W0 m ρ c) (Proc.devRef .tc main_v6) = _
  unfold Cert.Gcn.dst
  after_results_simp <;> rfl

set_option maxHeartbeats 4000000 in
set_option maxRecDepth 8192 in
/-- Where the degree is positive. -/
theorem W1_positive (c : Dev nD) : W1 m ρ c (Proc.devRef .tc main_v12) = Cert.Gcn.positive (F := Ideal) (Cert.Gcn.deg (F := Ideal) (A1 m c)) := by
  show StableHlo.after hostOps0 (W0 m ρ c) (Proc.devRef .tc main_v12) = _
  unfold Cert.Gcn.positive Cert.Gcn.deg Cert.Gcn.dst
  after_results_simp <;> rfl

set_option maxHeartbeats 4000000 in
set_option maxRecDepth 8192 in
/-- The degree's inverse square root. -/
theorem W1_rsqrt (c : Dev nD) : W1 m ρ c (Proc.devRef .tc main_v13) = Host.rsqrt (F := Ideal) (φ := .f32) (Cert.Gcn.deg (F := Ideal) (A1 m c)) := by
  show StableHlo.after hostOps0 (W0 m ρ c) (Proc.devRef .tc main_v13) = _
  unfold Cert.Gcn.deg Cert.Gcn.dst
  after_results_simp <;> rfl

set_option maxHeartbeats 4000000 in
set_option maxRecDepth 8192 in
/-- The zero that stands where the degree is not positive. -/
theorem W1_zero (c : Dev nD) : W1 m ρ c (Proc.devRef .tc main_cst_2) = constant (F := Ideal) S_ .f32 0x00000000#32 := by
  show StableHlo.after hostOps0 (W0 m ρ c) (Proc.devRef .tc main_cst_2) = _
  after_results_simp <;> rfl

set_option maxHeartbeats 4000000 in
set_option maxRecDepth 8192 in
/-- The second host stretch, from any buffer contents: one array where the mask holds, the scalar elsewhere. -/
theorem dis_stage (V : Valuation τ sig (Elt Ideal)) :
    StableHlo.after hostOps0_1 V (Proc.devRef .tc main_v14)
      = Cert.Gcn.disOf (F := Ideal) (V (Proc.devRef .tc main_v12)) (V (Proc.devRef .tc main_v13)) (V (Proc.devRef .tc main_cst_2)) := by
  unfold Cert.Gcn.disOf
  after_results_simp <;> rfl

/-- After it: the inverse square root of the degree where it is positive, zero elsewhere. -/
theorem W2_dis (c : Dev nD) : W2 m ρ c (Proc.devRef .tc main_v14) = Cert.Gcn.dis (F := Ideal) (A1 m c) := by
  refine (dis_stage (W1 m ρ c)).trans ?_
  rw [W1_positive, W1_rsqrt, W1_zero]
  rfl

theorem W2_src (c : Dev nD) : W2 m ρ c (Proc.devRef .tc main_v3) = Cert.Gcn.src (F := Ideal) (A1 m c) :=
  (by host_keeps hostOps0_1 : W2 m ρ c (Proc.devRef .tc main_v3) = W1 m ρ c (Proc.devRef .tc main_v3)).trans (W1_src m ρ c)

theorem W2_dst (c : Dev nD) : W2 m ρ c (Proc.devRef .tc main_v6) = Cert.Gcn.dst (F := Ideal) (A1 m c) :=
  (by host_keeps hostOps0_1 : W2 m ρ c (Proc.devRef .tc main_v6) = W1 m ρ c (Proc.devRef .tc main_v6)).trans (W1_dst m ρ c)

set_option maxHeartbeats 4000000 in
set_option maxRecDepth 8192 in
/-- The third host stretch, from any buffer contents: a per-node array read at the two ends of every edge, multiplied. -/
theorem norm_stage (V : Valuation τ sig (Elt Ideal)) :
    StableHlo.after hostOps0_2 V (Proc.devRef .tc main_v29)
      = Cert.Gcn.normOf (F := Ideal) (V (Proc.devRef .tc main_v14)) (V (Proc.devRef .tc main_v3)) (V (Proc.devRef .tc main_v6)) := by
  unfold Cert.Gcn.normOf Cert.Gcn.column
  after_results_simp <;> rfl

/-- After it: the edge weights. -/
theorem W3_norm (c : Dev nD) : W3 m ρ c (Proc.devRef .tc main_v29) = Cert.Gcn.norm (F := Ideal) (A1 m c) := by
  refine (norm_stage (W2 m ρ c)).trans ?_
  rw [W2_dis, W2_src, W2_dst]
  rfl

theorem W3_src (c : Dev nD) : W3 m ρ c (Proc.devRef .tc main_v3) = Cert.Gcn.src (F := Ideal) (A1 m c) :=
  (by host_keeps hostOps0_2 : W3 m ρ c (Proc.devRef .tc main_v3) = W2 m ρ c (Proc.devRef .tc main_v3)).trans (W2_src m ρ c)

theorem W3_dst (c : Dev nD) : W3 m ρ c (Proc.devRef .tc main_v6) = Cert.Gcn.dst (F := Ideal) (A1 m c) :=
  (by host_keeps hostOps0_2 : W3 m ρ c (Proc.devRef .tc main_v6) = W2 m ρ c (Proc.devRef .tc main_v6)).trans (W2_dst m ρ c)

/-! ## Buffers that keep their contents -/

theorem W3_arg0 (c : Dev nD) : W3 m ρ c (Proc.devRef .tc main_arg0) = A0 m c :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = A0 m c := rfl

theorem W3_arg2 (c : Dev nD) : W3 m ρ c (Proc.devRef .tc main_arg2) = A2 m c :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = A2 m c := rfl

theorem W5_arg3 (c : Dev nD) : W5 m ρ c (Proc.devRef .tc main_arg3) = A3 m c :=
  calc W5 m ρ c (Proc.devRef .tc main_arg3)
    _ = W4 m ρ c (Proc.devRef .tc main_arg3) := by host_keeps hostOps1
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = A3 m c := rfl

theorem W6_arg4 (c : Dev nD) : W6 m ρ c (Proc.devRef .tc main_arg4) = A4 m c :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = A4 m c := rfl

theorem W8_arg5 (c : Dev nD) : W8 m ρ c (Proc.devRef .tc main_arg5) = A5 m c :=
  calc W8 m ρ c (Proc.devRef .tc main_arg5)
    _ = W7 m ρ c (Proc.devRef .tc main_arg5) := by host_keeps hostOps3
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = A5 m c := rfl

theorem W9_arg6 (c : Dev nD) : W9 m ρ c (Proc.devRef .tc main_arg6) = A6 m c :=
  calc W9 m ρ c (Proc.devRef .tc main_arg6)
    _ = W8 m ρ c (Proc.devRef .tc main_arg6) := W9_of_ne m ρ c main_arg6 (by decide)
    _ = W7 m ρ c (Proc.devRef .tc main_arg6) := by host_keeps hostOps3
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = A6 m c := rfl

theorem W11_arg7 (c : Dev nD) : W11 m ρ c (Proc.devRef .tc main_arg7) = A7 m c :=
  calc W11 m ρ c (Proc.devRef .tc main_arg7)
    _ = W10 m ρ c (Proc.devRef .tc main_arg7) := by host_keeps hostOps5
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by host_keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = A7 m c := rfl

theorem W4_src (c : Dev nD) : W4 m ρ c (Proc.devRef .tc main_v3) = Cert.Gcn.src (F := Ideal) (A1 m c) :=
  calc W4 m ρ c (Proc.devRef .tc main_v3)
    _ = W3 m ρ c (Proc.devRef .tc main_v3) := W4_of_ne m ρ c main_v3 (by decide)
    _ = Cert.Gcn.src (F := Ideal) (A1 m c) := W3_src m ρ c

theorem W7_src (c : Dev nD) : W7 m ρ c (Proc.devRef .tc main_v3) = Cert.Gcn.src (F := Ideal) (A1 m c) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1
    _ = Cert.Gcn.src (F := Ideal) (A1 m c) := W4_src m ρ c

theorem W10_src (c : Dev nD) : W10 m ρ c (Proc.devRef .tc main_v3) = Cert.Gcn.src (F := Ideal) (A1 m c) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_keeps hostOps3
    _ = Cert.Gcn.src (F := Ideal) (A1 m c) := W7_src m ρ c

theorem W4_dst (c : Dev nD) : W4 m ρ c (Proc.devRef .tc main_v6) = Cert.Gcn.dst (F := Ideal) (A1 m c) :=
  calc W4 m ρ c (Proc.devRef .tc main_v6)
    _ = W3 m ρ c (Proc.devRef .tc main_v6) := W4_of_ne m ρ c main_v6 (by decide)
    _ = Cert.Gcn.dst (F := Ideal) (A1 m c) := W3_dst m ρ c

theorem W7_dst (c : Dev nD) : W7 m ρ c (Proc.devRef .tc main_v6) = Cert.Gcn.dst (F := Ideal) (A1 m c) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1
    _ = Cert.Gcn.dst (F := Ideal) (A1 m c) := W4_dst m ρ c

theorem W10_dst (c : Dev nD) : W10 m ρ c (Proc.devRef .tc main_v6) = Cert.Gcn.dst (F := Ideal) (A1 m c) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by host_keeps hostOps3
    _ = Cert.Gcn.dst (F := Ideal) (A1 m c) := W7_dst m ρ c

theorem W4_norm (c : Dev nD) : W4 m ρ c (Proc.devRef .tc main_v29) = Cert.Gcn.norm (F := Ideal) (A1 m c) :=
  calc W4 m ρ c (Proc.devRef .tc main_v29)
    _ = W3 m ρ c (Proc.devRef .tc main_v29) := W4_of_ne m ρ c main_v29 (by decide)
    _ = Cert.Gcn.norm (F := Ideal) (A1 m c) := W3_norm m ρ c

theorem W7_norm (c : Dev nD) : W7 m ρ c (Proc.devRef .tc main_v29) = Cert.Gcn.norm (F := Ideal) (A1 m c) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keeps hostOps1
    _ = Cert.Gcn.norm (F := Ideal) (A1 m c) := W4_norm m ρ c

theorem W10_norm (c : Dev nD) : W10 m ρ c (Proc.devRef .tc main_v29) = Cert.Gcn.norm (F := Ideal) (A1 m c) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := by host_keeps hostOps3
    _ = Cert.Gcn.norm (F := Ideal) (A1 m c) := W7_norm m ρ c

/-! ## The first layer -/

/-- After the first launch: the features times the first weight matrix. -/
theorem W4_dense (c : Dev nD) : W4 m ρ c (Proc.devRef .tc main_v30) = (Cert.Gcn.dense1 (F := Ideal) (A0 m c) (A2 m c)) := by
  refine (W4_arr m ρ c 2).trans ((region0_out (V3 m ρ) c).trans ?_)
  show rowsTimes (M := 100000) (K := 3) (N := 32) (W3 m ρ c (Proc.devRef .tc main_arg0)) (W3 m ρ c (Proc.devRef .tc main_arg2)) = _
  rw [W3_arg0, W3_arg2]
  exact (Cert.Gcn.dense1_eq _ _).symm

/-- After the next host stretch: its rows gathered by source, weighted, and summed by target. -/
theorem W5_agg (c : Dev nD) : W5 m ρ c (Proc.devRef .tc main_v43) = Cert.Gcn.aggregate32 (F := Ideal) (Cert.Gcn.dense1 (F := Ideal) (A0 m c) (A2 m c)) (Cert.Gcn.src (F := Ideal) (A1 m c)) (Cert.Gcn.dst (F := Ideal) (A1 m c)) (Cert.Gcn.norm (F := Ideal) (A1 m c)) := by
  show StableHlo.after hostOps1 (W4 m ρ c) (Proc.devRef .tc main_v43) = _
  after_results_simp
  rw [W4_src, W4_dst, W4_norm, W4_dense]
  rfl

/-- After the second launch: the first hidden layer. -/
theorem W6_hidden (c : Dev nD) : W6 m ρ c (Proc.devRef .tc main_v44) = (Cert.Gcn.hidden1 (F := Ideal) (A0 m c) (A1 m c) (A2 m c) (A3 m c)) := by
  refine (W6_arr m ρ c 2).trans ((region1_out (V5 m ρ) c).trans ?_)
  show reluAddRow (a := 100000) (b := 32) (W5 m ρ c (Proc.devRef .tc main_v43)) (shapeCast S1x32 (W5 m ρ c (Proc.devRef .tc main_arg3)) shapeCasts_S32_S1x32) = _
  rw [W5_agg, W5_arg3]
  unfold Cert.Gcn.hidden1
  exact (Cert.Gcn.biasClamp32_eq _ _ _).symm

/-! ## The second layer -/

/-- After the third launch: the first hidden layer times the second weight matrix. -/
theorem W7_dense (c : Dev nD) : W7 m ρ c (Proc.devRef .tc main_v45) = (Cert.Gcn.dense2 (F := Ideal) (Cert.Gcn.hidden1 (F := Ideal) (A0 m c) (A1 m c) (A2 m c) (A3 m c)) (A4 m c)) := by
  refine (W7_arr m ρ c 2).trans ((region2_out (V6 m ρ) c).trans ?_)
  show rowsTimes (M := 100000) (K := 32) (N := 32) (W6 m ρ c (Proc.devRef .tc main_v44)) (W6 m ρ c (Proc.devRef .tc main_arg4)) = _
  rw [W6_hidden, W6_arg4]
  exact (Cert.Gcn.dense2_eq _ _).symm

/-- Its aggregation over the edges. -/
theorem W8_agg (c : Dev nD) : W8 m ρ c (Proc.devRef .tc main_v58) = Cert.Gcn.aggregate32 (F := Ideal) (Cert.Gcn.dense2 (F := Ideal) (Cert.Gcn.hidden1 (F := Ideal) (A0 m c) (A1 m c) (A2 m c) (A3 m c)) (A4 m c)) (Cert.Gcn.src (F := Ideal) (A1 m c)) (Cert.Gcn.dst (F := Ideal) (A1 m c)) (Cert.Gcn.norm (F := Ideal) (A1 m c)) := by
  show StableHlo.after hostOps3 (W7 m ρ c) (Proc.devRef .tc main_v58) = _
  after_results_simp
  rw [W7_src, W7_dst, W7_norm, W7_dense]
  rfl

/-- After the fourth launch: the second hidden layer. -/
theorem W9_hidden (c : Dev nD) : W9 m ρ c (Proc.devRef .tc main_v59) = (Cert.Gcn.hidden2 (F := Ideal) (A0 m c) (A1 m c) (A2 m c) (A3 m c) (A4 m c) (A5 m c)) := by
  refine (W9_arr m ρ c 2).trans ((region3_out (V8 m ρ) c).trans ?_)
  show reluAddRow (a := 100000) (b := 32) (W8 m ρ c (Proc.devRef .tc main_v58)) (shapeCast S1x32 (W8 m ρ c (Proc.devRef .tc main_arg5)) shapeCasts_S32_S1x32) = _
  rw [W8_agg, W8_arg5]
  unfold Cert.Gcn.hidden2
  exact (Cert.Gcn.biasClamp32_eq _ _ _).symm

/-! ## The third layer -/

/-- After the fifth launch: the second hidden layer times the third weight matrix. -/
theorem W10_dense (c : Dev nD) : W10 m ρ c (Proc.devRef .tc main_v60) = (Cert.Gcn.dense3 (F := Ideal) (Cert.Gcn.hidden2 (F := Ideal) (A0 m c) (A1 m c) (A2 m c) (A3 m c) (A4 m c) (A5 m c)) (A6 m c)) := by
  refine (W10_arr m ρ c 2).trans ((region4_out (V9 m ρ) c).trans ?_)
  show rowsTimes (M := 100000) (K := 32) (N := 1) (W9 m ρ c (Proc.devRef .tc main_v59)) (W9 m ρ c (Proc.devRef .tc main_arg6)) = _
  rw [W9_hidden, W9_arg6]
  exact (Cert.Gcn.dense3_eq _ _).symm

/-- Its aggregation over the edges. -/
theorem W11_agg (c : Dev nD) : W11 m ρ c (Proc.devRef .tc main_v72) = Cert.Gcn.aggregate1 (F := Ideal) (Cert.Gcn.dense3 (F := Ideal) (Cert.Gcn.hidden2 (F := Ideal) (A0 m c) (A1 m c) (A2 m c) (A3 m c) (A4 m c) (A5 m c)) (A6 m c)) (Cert.Gcn.src (F := Ideal) (A1 m c)) (Cert.Gcn.dst (F := Ideal) (A1 m c)) (Cert.Gcn.norm (F := Ideal) (A1 m c)) := by
  show StableHlo.after hostOps5 (W10 m ρ c) (Proc.devRef .tc main_v72) = _
  after_results_simp
  rw [W10_src, W10_dst, W10_norm, W10_dense]
  rfl

/-- THE KERNEL PROGRAM'S RESULT: after the last launch the result array holds the network of the argument arrays. -/
theorem result (c : Dev nD) : W12 m ρ c (Proc.devRef .tc main_v73) = Cert.Gcn.network (F := Ideal) (A0 m c) (A1 m c) (A2 m c) (A3 m c) (A4 m c) (A5 m c) (A6 m c) (A7 m c) := by
  refine (W12_arr m ρ c 2).trans ((region5_out (V11 m ρ) c).trans ?_)
  show addRow (a := 100000) (b := 1) (W11 m ρ c (Proc.devRef .tc main_v72)) (shapeCast S1x1 (W11 m ρ c (Proc.devRef .tc main_arg7)) shapeCasts_S1_S1x1) = _
  rw [W11_agg, W11_arg7]
  unfold Cert.Gcn.network
  exact (Cert.Gcn.bias1_eq _ _ _).symm

end Cert.KernelIdeal.Boundaries

end
-- ==== Proof.RefStages.lean ====
/-
  The reference program computes the network.

  Its run ends with the result array at one composed term of the argument arrays: the host operations of the program in
  order. That term is `Gcn.network` of the arguments with every named stage written out — the edge lists with the self
  loops, the degrees and edge weights, and the three layers — so the two are the same term once the stages' names are
  unfolded.
-/
import proofs.«123987_j11390253269710_2_alg».proof.Proof.RefRun
import proofs.«123987_j11390253269710_2_alg».proof.Proof.GcnSpec

noncomputable section

namespace Cert.RefStages

open Cert.ReferenceIdeal Idealize.ShloMosaic Idealize.ShloMosaic.TcCoe Idealize.SL.Sem

variable {F : FTy → Type} [FloatOps F]

set_option maxRecDepth 16384 in
/-- The term the reference's run leaves in its result array is the network of the launch's argument arrays. -/
theorem result_eq (m : (ℓ : Loc nD τ sig) → Buf (Elt F) ℓ) (c : Dev nD) :
    Cert.ReferenceIdeal.ValueP.res_main_v81 (F := F) m c
      = Cert.Gcn.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v81
  unfold Cert.Gcn.network Cert.Gcn.hidden2 Cert.Gcn.hidden1 Cert.Gcn.bias1 Cert.Gcn.biasClamp32 Cert.Gcn.aggregate1
    Cert.Gcn.aggregate32 Cert.Gcn.dense1 Cert.Gcn.dense2 Cert.Gcn.dense3 Cert.Gcn.norm Cert.Gcn.normOf Cert.Gcn.dis Cert.Gcn.disOf Cert.Gcn.positive Cert.Gcn.deg Cert.Gcn.column Cert.Gcn.src Cert.Gcn.dst
  rfl

end Cert.RefStages

end
-- ==== Proof.lean ====
/-
  A three-layer graph convolution on TPU against its jnp reference: the two programs end with equal results on the
  extended reals.

  Both programs build the same edge lists (the given edges and a self loop per node) and the same symmetric edge weights
  on the host, and both aggregate with the host's gather and scatter-add. They differ in where the dense work happens:
  the reference multiplies by each layer's weight matrix, adds the bias and clamps with host operations on whole arrays;
  the kernel program does each of these in a launch blocked over 20 blocks of 5000 nodes. At the ideal instance a block's
  product (operands narrowed to bf16 — the identity on the extended reals — accumulated from zero) is the plain sum of
  products, which is what the host's product is entry by entry, and a block's bias-and-clamp is the host's entry by
  entry; the blocks tile their arrays. So after each launch the kernel program's array is the reference's stage
  (Proof/MatRegion*.lean, Proof/BiasRegion*.lean for the launches; Proof/Boundaries.lean for the program's buffers from
  segment to segment; Proof/GcnSpec.lean names the stages and Proof/GcnLaws.lean gives their plain forms), and the
  reference's own run ends at the same network of its arguments (Proof/RefRun.lean, Proof/RefStages.lean). No step uses
  that the inputs are finite: the two sides are the same sums of the same products, the same additions and maxima.
  The idealization rewrote nothing in the kernel program, so `preserves` asks nothing.
-/
import proofs.«123987_j11390253269710_2_alg».proof.Defs
import proofs.«123987_j11390253269710_2_alg».proof.Proof.Gen.Kernel
import proofs.«123987_j11390253269710_2_alg».proof.Proof.Gen.Kernel.Skeleton
import proofs.«123987_j11390253269710_2_alg».proof.Proof.Gen.Kernel.Launch
import proofs.«123987_j11390253269710_2_alg».proof.Proof.Gen.Kernel.Points
import proofs.«123987_j11390253269710_2_alg».proof.Proof.Gen.Kernel.Frame
import proofs.«123987_j11390253269710_2_alg».proof.Proof.Gen.KernelIdeal
import proofs.«123987_j11390253269710_2_alg».proof.Proof.Gen.KernelIdeal.Skeleton
import proofs.«123987_j11390253269710_2_alg».proof.Proof.Gen.KernelIdeal.Launch
import proofs.«123987_j11390253269710_2_alg».proof.Proof.Gen.KernelIdeal.Points
import proofs.«123987_j11390253269710_2_alg».proof.Proof.Gen.KernelIdeal.Frame
import proofs.«123987_j11390253269710_2_alg».proof.Proof.Gen.ReferenceIdeal
import proofs.«123987_j11390253269710_2_alg».proof.Proof.Gen.Pre_finite_inputs
import proofs.«123987_j11390253269710_2_alg».proof.Proof.KernelRun
import proofs.«123987_j11390253269710_2_alg».proof.Proof.Boundaries
import proofs.«123987_j11390253269710_2_alg».proof.Proof.RefRun
import proofs.«123987_j11390253269710_2_alg».proof.Proof.RefStages
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the network of the (agreeing) argument arrays in their result arrays. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Boundaries.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    rw [Cert.RefStages.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
